-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 85
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x1, .f32⟩
  | .hbm, ⟨77, _⟩ => ⟨S3300000x16, .f32⟩
  | .hbm, ⟨78, _⟩ => ⟨S3300000x16, .f32⟩
  | .hbm, ⟨79, _⟩ => ⟨S_, .f32⟩
  | .hbm, ⟨80, _⟩ => ⟨S100000x16, .f32⟩
  | .hbm, ⟨81, _⟩ => ⟨S3300000x1, .i32⟩
  | .hbm, ⟨82, _⟩ => ⟨S100000x16, .f32⟩
  | .hbm, ⟨83, _⟩ => ⟨S1x64, .f32⟩
  | .hbm, ⟨84, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S64_S1x64 : S64.ShapeCasts S1x64
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x64, .f32⟩
  | .hbm, ⟨105, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The run of the three-region program with its result named.

  The program is a chain of eight segments: three stretches of host operations, the first kernel region, a stretch, the
  second region, a stretch, the third region. The contents of the TensorCore's buffers at each boundary are a fold from
  the launch memory: a stretch applies its operations, a region replaces its windows' arrays by what its write-backs
  leave. Every weakly fair execution terminates, nothing faulting, with every unscoped buffer at the last boundary's
  contents; so the result buffer ends at the last boundary's contents of the result, and the six arguments end as
  launched (no stretch and no region writes an argument).
-/
import proofs.«157643_j29832842838041_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents of
    the result (what the third region's write-backs leave) and the arguments as launched. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«157643_j29832842838041_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«157643_j29832842838041_2_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibRowLogSoftmax.lean ====
/-
  The logarithm of the softmax along the rows of a matrix, over the extended reals: with m the largest entry of row p
  (the fold of max over the row, from the word of minus infinity), the entry (p, q) is
  (v (p, q) - m) - log (sum over k of exp (v (p, k) - m)).

  Three readings of it. A vector unit reduces each row to its maximum and to its sum, re-lays each of the two vectors as
  one column and spreads the column along the rows. The host reduces with the same two bodies, takes one more maximum
  against minus infinity (which changes nothing: the fold already starts there), starts its sum from the zero word (which
  adds nothing), and broadcasts in two steps. And a band of consecutive rows of the result is the same function of that
  band of rows of v: a row of the result depends on the same row of v only.
-/
import proofs.«157643_j29832842838041_2_alg».proof.Proof.LibKeepdims
import proofs.«157643_j29832842838041_2_alg».proof.Proof.LibColumn

noncomputable section

namespace Cert.RowLogSoftmax

open Idealize.ShloMosaic Idealize.ShloMosaic.ValueIdx

/-- The largest entry of row p: the fold of max over the row, from the value of the word of minus infinity. -/
def rowMax {M N : ℕ} (v : FVec Ideal ⟨2, ![M, N]⟩ .f32) (p : Fin M) : EReal :=
  (Finset.univ : Finset (Fin N)).fold max (Ideal.ofBits .f32 0xFF800000#32) (fun k : Fin N => v (ix2 p k))

/-- (v (p, q) - m) - log (sum over k of exp (v (p, k) - m)), m the largest entry of row p. -/
def logSoftmax {M N : ℕ} (v : FVec Ideal ⟨2, ![M, N]⟩ .f32) : FVec Ideal ⟨2, ![M, N]⟩ .f32 :=
  fun i => (v i - rowMax v (i 0)) - Ideal.log (∑ k : Fin N, Ideal.exp (v (ix2 (i 0) k) - rowMax v (i 0)))

theorem logSoftmax_apply {M N : ℕ} (v : FVec Ideal ⟨2, ![M, N]⟩ .f32) (p : Fin M) (q : Fin N) :
    logSoftmax v (ix2 p q)
      = (v (ix2 p q) - rowMax v p) - Ideal.log (∑ k : Fin N, Ideal.exp (v (ix2 p k) - rowMax v p)) := rfl

/-! ## The vector unit's form -/

/-- A vector re-laid as one column and spread along the rows reads, at (p, q), the vector at p. -/
theorem column_spread {T N : ℕ} (u : FVec Ideal ⟨1, ![T]⟩ .f32) (hc : (⟨1, ![T]⟩ : Shape).ShapeCasts ⟨2, ![T, 1]⟩)
    (hb : (⟨2, ![T, 1]⟩ : Shape).Broadcasts ⟨2, ![T, N]⟩) (p : Fin T) (q : Fin N) :
    broadcastTo ⟨2, ![T, N]⟩ (shapeCast ⟨2, ![T, 1]⟩ u hc) hb (ix2 p q) = u (ix1 p) :=
  (Cert.LibColumn.broadcastTo_a1_ab_apply _ hb p q).trans (Cert.LibColumn.shapeCast_a_a1_apply u hc p 0)

/-- Each entry less its row's maximum, the maximum taken by a lane reduction and spread back as a column. -/
theorem unit_shift {T N : ℕ} (x0 : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hc : (⟨1, ![T]⟩ : Shape).ShapeCasts ⟨2, ![T, 1]⟩) (hb : (⟨2, ![T, 1]⟩ : Shape).Broadcasts ⟨2, ![T, N]⟩)
    (p : Fin T) (k : Fin N) :
    subf x0 (broadcastTo ⟨2, ![T, N]⟩ (shapeCast ⟨2, ![T, 1]⟩
        (multiReduction .maximumf [1] ⟨1, ![T]⟩ x0 0xFF800000#32 hr hφ hmax) hc) hb) (ix2 p k)
      = x0 (ix2 p k) - rowMax x0 p := by
  rw [subf_apply, column_spread]
  exact congrArg (x0 (ix2 p k) - ·) (Cert.LibKeepdims.max_last2_apply x0 _ hr hφ hmax p)

/-- The vector unit's form: the operand through an identity re-lay; the row maximum and the row sum by lane reductions,
    each re-laid as a column and spread along the rows; the logarithm taken on the column. -/
theorem unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf (shapeCast ⟨2, ![T, N]⟩ x0 hs) (broadcastTo ⟨2, ![T, N]⟩ (shapeCast ⟨2, ![T, 1]⟩
          (multiReduction .maximumf [1] ⟨1, ![T]⟩ (shapeCast ⟨2, ![T, N]⟩ x0 hs) 0xFF800000#32 hr hφ hmax) hc) hb))
        (broadcastTo ⟨2, ![T, N]⟩ (log (shapeCast ⟨2, ![T, 1]⟩
          (multiReduction .add [1] ⟨1, ![T]⟩
            (exp (subf (shapeCast ⟨2, ![T, N]⟩ x0 hs) (broadcastTo ⟨2, ![T, N]⟩ (shapeCast ⟨2, ![T, 1]⟩
              (multiReduction .maximumf [1] ⟨1, ![T]⟩ (shapeCast ⟨2, ![T, N]⟩ x0 hs) 0xFF800000#32 hr hφ hmax) hc) hb)))
            0x00000000#32 hr hφ hadd) hc)) hb)
      = logSoftmax x0 := by
  rw [shapeCast_self]
  funext j
  obtain ⟨p, q, rfl⟩ : ∃ (p : Fin T) (q : Fin N), j = ix2 p q := ⟨j 0, j 1, eq_ix2 j⟩
  rw [logSoftmax_apply, subf_apply, unit_shift x0 hr hφ hmax hc hb p q, Cert.LibColumn.broadcastTo_a1_ab_apply]
  refine congrArg (fun z => x0 (ix2 p q) - rowMax x0 p - z) ?_
  rw [Cert.LibKeepdims.log_apply, Cert.LibColumn.shapeCast_a_a1_apply, Cert.LibKeepdims.sum_last2_apply]
  refine congrArg Ideal.log (Finset.sum_congr rfl fun k _ => ?_)
  rw [Cert.LibKeepdims.exp_apply, unit_shift x0 hr hφ hmax hc hb p k]

/-! ## The host's form -/

/-- A scalar broadcast to every entry reads, anywhere, the scalar. -/
theorem splat_apply {s : Shape} (x : (⟨0, ![]⟩ : Shape).Idx → EReal) (h : (⟨0, ![]⟩ : Shape).BroadcastsInDim s ![])
    (i : s.Idx) : broadcastInDim s ![] h x i = x ix0 :=
  broadcastInDim_apply _ h x i ix0 (fun a => a.elim0)

/-- A vector broadcast to one column reads, at (p, u), the vector at p. -/
theorem column_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- One column broadcast along the rows reads, at (p, c), the column at p. -/
theorem spread_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- The host's logarithm and exponential, at an index. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The host's row maximum, and one more maximum against minus infinity, is the row's maximum: the fold starts at the
    value it is compared with once more. -/
theorem host_rowMax {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![]) (p : Fin M) :
    maximumf (broadcastInDim ⟨1, ![M]⟩ ![] hS (constant (F := Ideal) ⟨0, ![]⟩ .f32 0xFF800000#32))
        (Host.reduce (FloatOps.maximumf (F := Ideal) (φ := .f32)) v (constant (F := Ideal) ⟨0, ![]⟩ .f32 0xFF800000#32) hrt hu)
        (ix1 p)
      = rowMax v p := by
  have hf : (v ∘ hr.lift (ix1 p)) = fun k : Fin N => v (ix2 p k) :=
    funext fun k => congrArg v (Cert.LibKeepdims.lift_last2 hr p k)
  rw [maximumf_apply, splat_apply]
  refine (congrArg (max (Ideal.ofBits .f32 0xFF800000#32))
    ((Host.reduce_eq_fold_single (FloatOps.maximumf (F := Ideal) (φ := .f32)) v _ hrt hr hu (ix1 p)).trans
      (congrArg (fun f => Finset.fold max (Ideal.ofBits .f32 0xFF800000#32) f (Finset.univ : Finset (Fin N))) hf))).trans ?_
  exact max_eq_right ((Finset.le_fold_max _).mpr (Or.inl le_rfl))

/-- The host's row sum from the zero word is the row's sum. -/
theorem host_rowSum {M N : ℕ} (x : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel) (p : Fin M) :
    Host.reduceAdd (F := Ideal) x (constant (F := Ideal) ⟨0, ![]⟩ .f32 0x00000000#32) hrt hu (ix1 p)
      = ∑ k : Fin N, x (ix2 p k) := by
  simp only [Host.reduceAdd, Ideal.hostReduceAdd_def]
  rw [Ideal.hostReduceAdd_single hrt hr, constant_apply, Ideal.ofBits_zero_f32, zero_add]
  exact Finset.sum_congr rfl fun k _ => congrArg x (Cert.LibKeepdims.lift_last2 hr p k)

/-- Each entry less its row's maximum, in the host's form. -/
theorem host_shift {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) (p : Fin M) (k : Fin N) :
    subf v (broadcastInDim ⟨2, ![M, N]⟩ ![0, 1] h01 (broadcastInDim ⟨2, ![M, 1]⟩ ![0] h0
        (maximumf (broadcastInDim ⟨1, ![M]⟩ ![] hS (constant (F := Ideal) ⟨0, ![]⟩ .f32 0xFF800000#32))
          (Host.reduce (FloatOps.maximumf (F := Ideal) (φ := .f32)) v (constant (F := Ideal) ⟨0, ![]⟩ .f32 0xFF800000#32) hrt hu))))
        (ix2 p k)
      = v (ix2 p k) - rowMax v p := by
  rw [subf_apply, spread_apply, column_apply, host_rowMax v hrt hr hu hS p]

/-- The host's form of the whole function. -/
theorem host_form {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) :
    subf (subf v (broadcastInDim ⟨2, ![M, N]⟩ ![0, 1] h01 (broadcastInDim ⟨2, ![M, 1]⟩ ![0] h0
          (maximumf (broadcastInDim ⟨1, ![M]⟩ ![] hS (constant (F := Ideal) ⟨0, ![]⟩ .f32 0xFF800000#32))
            (Host.reduce (FloatOps.maximumf (F := Ideal) (φ := .f32)) v (constant (F := Ideal) ⟨0, ![]⟩ .f32 0xFF800000#32) hrt hu)))))
        (broadcastInDim ⟨2, ![M, N]⟩ ![0, 1] h01 (Host.log (F := Ideal) (broadcastInDim ⟨2, ![M, 1]⟩ ![0] h0
          (Host.reduceAdd (F := Ideal)
            (Host.exp (F := Ideal) (subf v (broadcastInDim ⟨2, ![M, N]⟩ ![0, 1] h01 (broadcastInDim ⟨2, ![M, 1]⟩ ![0] h0
              (maximumf (broadcastInDim ⟨1, ![M]⟩ ![] hS (constant (F := Ideal) ⟨0, ![]⟩ .f32 0xFF800000#32))
                (Host.reduce (FloatOps.maximumf (F := Ideal) (φ := .f32)) v (constant (F := Ideal) ⟨0, ![]⟩ .f32 0xFF800000#32) hrt hu))))))
            (constant (F := Ideal) ⟨0, ![]⟩ .f32 0x00000000#32) hrt hu))))
      = logSoftmax v := by
  funext j
  obtain ⟨p, q, rfl⟩ : ∃ (p : Fin M) (q : Fin N), j = ix2 p q := ⟨j 0, j 1, eq_ix2 j⟩
  rw [logSoftmax_apply, subf_apply, host_shift v hrt hr hu hS h0 h01 p q, spread_apply]
  refine congrArg (fun z => v (ix2 p q) - rowMax v p - z) ?_
  rw [hostLog_apply, column_apply, host_rowSum _ hrt hr hu p]
  refine congrArg Ideal.log (Finset.sum_congr rfl fun k _ => ?_)
  rw [hostExp_apply, host_shift v hrt hr hu hS h0 h01 p k]

/-! ## A band of rows -/

/-- Rows r, …, r + T − 1 of the result: when x holds those rows of V, the entry of the block's result at y is the entry of
    the whole result at the index whose row is r plus y's row and whose column is y's. -/
theorem logSoftmax_rows {M N T : ℕ} (V : FVec Ideal ⟨2, ![M, N]⟩ .f32) (x : FVec Ideal ⟨2, ![T, N]⟩ .f32) (r : ℕ)
    (hx : ∀ (p : Fin T) (k : Fin N) (hp : r + p.val < M), x (ix2 p k) = V (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    logSoftmax x y = logSoftmax V i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  have hrow : ∀ k : Fin N, x (ix2 p k) = V (ix2 p' k) := fun k => by rw [hx p k (h0 ▸ p'.isLt), ← hp']
  have hm : rowMax x p = rowMax V p' :=
    congrArg (fun f => Finset.fold max (Ideal.ofBits .f32 0xFF800000#32) f (Finset.univ : Finset (Fin N))) (funext hrow)
  rw [logSoftmax_apply, logSoftmax_apply, hm]
  simp only [hrow]

end Cert.RowLogSoftmax

end
-- ==== Proof.LibRowBias.lean ====
/-
  A row bias over the extended reals, for matrices of any extents (needs LibPlainDot, LibRowLogSoftmax and its imports).
  A matrix plus a one-row matrix repeated down the rows (a bias added to every row): entry (p, q) of `addRow a b` is
  a (p, q) + b (0, q). Its vector-unit spelling (identity re-lays, the row repeated by a broadcast) and its host spelling
  (the row broadcast down the rows) are this function, and a band of rows of it is the same function of the band.
  A vector laid out as one row: `rowOf v` at (0, q) is v q; a re-lay of the vector as [1, N] and a broadcast of it to
  [1, N] are both this row.
  And the vector unit's logarithm of a row softmax when its operand is not behind an identity re-lay.
-/
import proofs.«157643_j29832842838041_2_alg».proof.Proof.LibPlainDot
import proofs.«157643_j29832842838041_2_alg».proof.Proof.LibRowLogSoftmax

noncomputable section

namespace Cert.LibRowBias

open Idealize.ShloMosaic Idealize.ShloMosaic.ValueIdx

/-- Entry (p, q): a (p, q) + b (0, q). -/
def addRow {M N : ℕ} (a : FVec Ideal ⟨2, ![M, N]⟩ .f32) (b : FVec Ideal ⟨2, ![1, N]⟩ .f32) : FVec Ideal ⟨2, ![M, N]⟩ .f32 :=
  fun i => a i + b (ix2 (n0 := 1) (n1 := N) (0 : Fin 1) (i 1))

theorem addRow_apply {M N : ℕ} (a : FVec Ideal ⟨2, ![M, N]⟩ .f32) (b : FVec Ideal ⟨2, ![1, N]⟩ .f32) (p : Fin M) (q : Fin N) :
    addRow a b (ix2 p q) = a (ix2 p q) + b (ix2 (0 : Fin 1) q) := rfl

/-- The vector unit's spelling: both operands through identity re-lays, the row repeated down the rows. -/
theorem addRow_vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    addf (shapeCast ⟨2, ![M, N]⟩ a h1) (broadcastTo ⟨2, ![M, N]⟩ (shapeCast ⟨2, ![1, N]⟩ b h2) hb) = addRow a b := by
  funext j
  obtain ⟨p, q, rfl⟩ : ∃ (p : Fin M) (q : Fin N), j = ix2 p q := ⟨j 0, j 1, eq_ix2 j⟩
  rw [shapeCast_self, shapeCast_self, addf_apply, broadcastTo_1b_ab_apply, addRow_apply]

/-- The host's spelling: the row broadcast down the rows. -/
theorem addRow_host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1]) :
    addf a (broadcastInDim ⟨2, ![M, N]⟩ ![0, 1] hbc b) = addRow a b := by
  funext j
  obtain ⟨p, q, rfl⟩ : ∃ (p : Fin M) (q : Fin N), j = ix2 p q := ⟨j 0, j 1, eq_ix2 j⟩
  rw [addf_apply, Cert.LibPlainDot.bcast_1b_ab_apply, addRow_apply]

/-- Rows r, …, r + T − 1: when a holds those rows of A and b is B, entry (p, q) of `addRow a b` is entry (r + p, q) of
    `addRow A B`. -/
theorem addRow_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    addRow a b (ix2 p q) = addRow A B (ix2 ⟨r + p.val, hp⟩ q) := by
  rw [addRow_apply, addRow_apply, ha p q hp, hb]

/-- A vector as a one-row matrix: at (0, q) it is v q. -/
def rowOf {N : ℕ} (v : FVec Ideal ⟨1, ![N]⟩ .f32) : FVec Ideal ⟨2, ![1, N]⟩ .f32 :=
  fun i => v (ix1 (n := N) (i 1))

/-- A vector re-laid as [1, N] is that row. -/
theorem rowOf_cast {N : ℕ} (v : FVec Ideal ⟨1, ![N]⟩ .f32) (h : (⟨1, ![N]⟩ : Shape).ShapeCasts ⟨2, ![1, N]⟩) :
    shapeCast ⟨2, ![1, N]⟩ v h = rowOf v := by
  funext j
  obtain ⟨u, q, rfl⟩ : ∃ (u : Fin 1) (q : Fin N), j = ix2 u q := ⟨j 0, j 1, eq_ix2 j⟩
  exact shapeCast_a_1a_apply v h u q

/-- A vector broadcast to [1, N] along its one axis is that row. -/
theorem rowOf_bcast {N : ℕ} (v : FVec Ideal ⟨1, ![N]⟩ .f32) (h : (⟨1, ![N]⟩ : Shape).BroadcastsInDim ⟨2, ![1, N]⟩ ![1]) :
    broadcastInDim ⟨2, ![1, N]⟩ ![1] h v = rowOf v := by
  funext j
  obtain ⟨u, q, rfl⟩ : ∃ (u : Fin 1) (q : Fin N), j = ix2 u q := ⟨j 0, j 1, eq_ix2 j⟩
  exact Cert.LibPlainDot.bcast_a_1a_apply v h u q

/-- The vector unit's logarithm of the row softmax of an operand that is used as it is (no identity re-lay in front):
    the row maximum and the row sum by lane reductions, each re-laid as a column and spread along the rows. -/
theorem logSoftmax_unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf x0 (broadcastTo ⟨2, ![T, N]⟩ (shapeCast ⟨2, ![T, 1]⟩
          (multiReduction .maximumf [1] ⟨1, ![T]⟩ x0 0xFF800000#32 hr hφ hmax) hc) hb))
        (broadcastTo ⟨2, ![T, N]⟩ (log (shapeCast ⟨2, ![T, 1]⟩
          (multiReduction .add [1] ⟨1, ![T]⟩
            (exp (subf x0 (broadcastTo ⟨2, ![T, N]⟩ (shapeCast ⟨2, ![T, 1]⟩
              (multiReduction .maximumf [1] ⟨1, ![T]⟩ x0 0xFF800000#32 hr hφ hmax) hc) hb)))
            0x00000000#32 hr hφ hadd) hc)) hb)
      = Cert.RowLogSoftmax.logSoftmax x0 := by
  have h := Cert.RowLogSoftmax.unit_form x0 hs hr hφ hmax hadd hc hb
  rw [shapeCast_self] at h
  exact h

end Cert.LibRowBias

end
-- ==== Proof.Payloads.lean ====
/-
  The arithmetic of the three kernel bodies, each as one function of the blocks it loads, over the extended reals.

  * The first body multiplies its block of rows of the features by the whole weight matrix on the matrix unit, into a
    zero accumulator: the matrix product of the two blocks.
  * The second body adds the one-row bias to every row of its block and clamps below at zero.
  * The third body multiplies its block of rows by the second weight matrix, adds the one-row bias to every row, and
    takes the logarithm of the softmax along each row (the row maximum and the row sum by lane reductions, each spread
    back over the row as a column).
-/
import proofs.«157643_j29832842838041_2_alg».proof.Proof.Gen.KernelIdeal.Skeleton
import proofs.«157643_j29832842838041_2_alg».proof.Proof.LibMatProd
import proofs.«157643_j29832842838041_2_alg».proof.Proof.LibBiasRelu
import proofs.«157643_j29832842838041_2_alg».proof.Proof.LibRowBias

noncomputable section

namespace Cert.Gcn

open Idealize.ShloMosaic Idealize.ShloMosaic.TcCoe Idealize.ShloMosaic.ValueIdx
open Cert.KernelIdeal Cert.KernelIdeal.Gen
open Cert.LibMatProd Cert.LibPlainDot Cert.LibBiasRelu Cert.LibRowBias Cert.RowLogSoftmax

/-- A matrix unit's product of two f32 operands, accumulated into zeros, is the matrix product: entry (p, q) is the sum
    over k of x (p, k) · w (k, q), and the zero accumulator adds nothing. -/
theorem matmul_zero_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    matmul d none x w (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  exact (Ideal.matmul_constant_zero_apply d none _ _ (ix2 p q)).trans (plain_sum d h1 h2 h3 h4 h5 h6 x w p q)

/-- A matrix plus a one-row matrix that went through an identity re-lay and was repeated down the rows. -/
theorem addRow_spread {M N : ℕ} (a : FVec Ideal ⟨2, ![M, N]⟩ .f32) (b : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ b h2) hb) = addRow a b := by
  funext j
  obtain ⟨p, q, rfl⟩ : ∃ (p : Fin M) (q : Fin N), j = ix2 p q := ⟨j 0, j 1, eq_ix2 j⟩
  rw [shapeCast_self, addf_apply, broadcastTo_1b_ab_apply, addRow_apply]

/-- The first body: the product of the block of rows with the weights. -/
theorem pay0_eq (x0 : Vec Ideal S5000x512 .f32) (x1 : Vec Ideal S512x16 .f32) :
    k0_pay1 (F := Ideal) x0 x1 = matProd x0 x1 := by
  unfold k0_pay1
  exact matmul_zero_eq dot_S5000x512_S512x16_S5000x16_1_0_0_1_n_n rfl rfl rfl rfl rfl rfl x0 x1

/-- The second body: the block plus the bias row, clamped below at zero. -/
theorem pay1_eq (x0 : Vec Ideal S5000x16 .f32) (x1 : Vec Ideal S1x16 .f32) :
    k1_pay1 (F := Ideal) x0 x1 = biasRelu x0 x1 := by
  unfold k1_pay1
  exact Cert.LibBiasRelu.vector_form x0 x1 _ _ _

/-- The third body: the logarithm of the row softmax of (block · weights + bias row). -/
theorem pay2_eq (x0 : Vec Ideal S5000x16 .f32) (w : Vec Ideal S16x64 .f32) (b : Vec Ideal S1x64 .f32) :
    k2_pay1 (F := Ideal) x0 w b = logSoftmax (addRow (matProd x0 w) b) := by
  unfold k2_pay1
  dsimp only
  rw [shapeCast_self, matmul_zero_eq dot_S5000x16_S16x64_S5000x64_1_0_0_1_n_n rfl rfl rfl rfl rfl rfl x0 w,
    addRow_spread (matProd x0 w) b]
  exact logSoftmax_unit_form (addRow (matProd x0 w) b) rfl _ _ _ _ _ _

end Cert.Gcn

end
-- ==== Proof.Region0.lean ====
/-
  The first region as one function of its arrays: the array it writes ends holding the matrix product of the features
  with the first weight matrix.

  The grid has twenty points. Point t reads rows 5000·t … 5000·t + 4999 of the features (all 512 columns) and the whole
  weight matrix, and writes back rows 5000·t … 5000·t + 4999 of the result (all 16 columns). A band of rows of a matrix
  product is the product of that band of rows with the same weights, so what point t writes back is the product read
  through its block; the twenty blocks tile the 100000 rows, so every entry of the array is written by the point
  row / 5000.
-/
import proofs.«157643_j29832842838041_2_alg».proof.Proof.Gen.KernelIdeal.Frame
import proofs.«157643_j29832842838041_2_alg».proof.Proof.Payloads

set_option maxRecDepth 16384

noncomputable section

namespace Cert.Gcn.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LibMatProd

variable (V : (c : Dev nD) → (b : Ref sig .tc) → Buf (Elt Ideal) ((c : Thread nD τ).loc b))

theorem offs_zero : (![0, 0] : Fin 2 → Nat) = fun _ => 0 := funext fun a => by fin_cases a <;> rfl

/-- The printed index maps over the grid: the features' window and the result's window are at block row t, block
    column 0; the weights' window stays at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row 0 … 19 is some point's. -/
theorem block_onto : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- What point t writes back is its block of the product of the two arrays as the region finds them. -/
theorem written_back (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero offs_zero]
  simp only [View.ld_unit_zero (S := S5000x512) offs_zero, View.ld_unit_zero (S := S512x16) offs_zero]
  rw [Cert.Gcn.pay0_eq]
  obtain ⟨e0, e1, e2, e3, e4, e5⟩ := block_index t
  funext j
  show matProd (iblk0 V c 0 t) (iblk0 V c 1 t) j
    = matProd (V c main_arg0) (V c main_arg2) (((cfg0.win 2).blk t).view.emb j)
  refine matProd_rows (V c main_arg0) (V c main_arg2) (iblk0 V c 0 t) (iblk0 V c 1 t) (t.val * 5000) ?_ ?_ j _ ?_ ?_
  · intro p k hp
    show V c main_arg0 (((cfg0.win 0).blk t).view.emb (ix2 p k)) = V c main_arg0 (ix2 ⟨t.val * 5000 + p.val, hp⟩ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 512 + 1 * k.val = k.val; omega
  · intro z
    show V c main_arg2 (((cfg0.win 1).blk t).view.emb z) = V c main_arg2 z
    refine congrArg _ (funext fun a => Fin.ext ?_)
    match a with
    | ⟨0, _⟩ => show win0_1.index t (0 : Fin 2) * 512 + 1 * (z 0).val = (z 0).val; omega
    | ⟨1, _⟩ => show win0_1.index t (1 : Fin 2) * 16 + 1 * (z 1).val = (z 1).val; omega
  · show win0_2.index t (0 : Fin 2) * 5000 + 1 * (j 0).val = t.val * 5000 + (j 0).val; omega
  · show win0_2.index t (1 : Fin 2) * 16 + 1 * (j 1).val = (j 1).val; omega

/-- An index of the array is in point t's block iff each coordinate is in the block's range on its axis. -/
theorem in_block (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v31).slice (win0_2.rect t)).set ↔ _
  rw [View.set_slice_whole, Rect.mem_set_unit]
  exact Iff.rfl

/-- Every index of the array is in the block of the point row / 5000. -/
theorem tiled (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, q0, q1⟩ := block_onto ⟨(i 0).val / 5000, by omega⟩
  have q0' : win0_2.index t (0 : Fin 2) = (i 0).val / 5000 := q0
  refine ⟨t, flush0_2 t, ?_⟩
  rw [in_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 16 ≤ (i 1).val ∧ (i 1).val < win0_2.index t (1 : Fin 2) * 16 + 16
    omega

/-- The array the region writes ends holding the product of the two arrays it reads. -/
theorem result (c : Dev nD) :
    (dat0 V c).arrAt 2 cfg0.N = matProd (V c main_arg0) (V c main_arg2) :=
  (dat0 V c).arrAt_eq_of_cover 2 (matProd (V c main_arg0) (V c main_arg2)) (fun t _ => written_back V c t) tiled

end Cert.Gcn.Region0

end
-- ==== Proof.Region1.lean ====
/-
  The second region as one function of its arrays: the array it writes ends holding the aggregated features plus the
  bias row, clamped below at zero.

  The grid has twenty points. Point t reads rows 5000·t … 5000·t + 4999 of the aggregated features (16 columns) and the
  one-row bias, and writes back the same rows of the result. A row of the result depends on the same row of the
  features only, so what point t writes back is the whole-array function read through its block; the twenty blocks
  tile the 100000 rows.
-/
import proofs.«157643_j29832842838041_2_alg».proof.Proof.Gen.KernelIdeal.Frame
import proofs.«157643_j29832842838041_2_alg».proof.Proof.Payloads

set_option maxRecDepth 16384

noncomputable section

namespace Cert.Gcn.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LibBiasRelu

variable (V : (c : Dev nD) → (b : Ref sig .tc) → Buf (Elt Ideal) ((c : Thread nD τ).loc b))

theorem offs_zero : (![0, 0] : Fin 2 → Nat) = fun _ => 0 := funext fun a => by fin_cases a <;> rfl

/-- The printed index maps over the grid: the features' window and the result's window are at block row t, block
    column 0; the bias row's window stays at block (0, 0); there are twenty points. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- Every block row 0 … 19 is some point's. -/
theorem block_onto : ∀ q : Fin 20, ∃ t : Fin cfg1.N, win1_2.index t (0 : Fin 2) = q.val ∧ win1_2.index t (1 : Fin 2) = 0 :=
  (by decide +kernel : ∀ q : Fin 20, ∃ t : Fin grid1.N, win1_2.index t (0 : Fin 2) = q.val ∧ win1_2.index t (1 : Fin 2) = 0)

/-- What point t writes back is its block of the clamped sum of the two arrays as the region finds them. -/
theorem written_back (c : Dev nD) (t : Fin cfg1.N) :
    (dat1 V c).flushed 2 t
      = ((cfg1.win 2).blk t).view.read (Elt Ideal) (biasRelu (V c main_v44) (V c main_v45)) := by
  show (cfg1.win 2).cut (grid1.coords t) ((dat1 V c).after 2 t) = _
  rw [after1_2]
  unfold out1_2
  rw [View.canon_unit_zero offs_zero]
  simp only [View.ld_unit_zero (S := S5000x16) offs_zero, View.ld_unit_zero (S := S1x16) offs_zero]
  rw [Cert.Gcn.pay1_eq]
  obtain ⟨e0, e1, e2, e3, e4, e5, e6⟩ := block_index t
  funext j
  obtain ⟨p, q, rfl⟩ : ∃ (p : Fin 5000) (q : Fin 16), j = ix2 p q := ⟨j 0, j 1, eq_ix2 j⟩
  have hp : t.val * 5000 + p.val < 100000 := by have := p.isLt; omega
  have hemb : ((cfg1.win 2).blk t).view.emb (ix2 p q) = ix2 ⟨t.val * 5000 + p.val, hp⟩ q := funext fun a => Fin.ext (by
    match a with
    | ⟨0, _⟩ => show win1_2.index t (0 : Fin 2) * 5000 + 1 * p.val = t.val * 5000 + p.val; omega
    | ⟨1, _⟩ => show win1_2.index t (1 : Fin 2) * 16 + 1 * q.val = q.val; omega)
  show biasRelu (iblk1 V c 0 t) (iblk1 V c 1 t) (ix2 p q)
    = biasRelu (V c main_v44) (V c main_v45) (((cfg1.win 2).blk t).view.emb (ix2 p q))
  rw [hemb]
  refine biasRelu_rows (V c main_v44) (V c main_v45) (iblk1 V c 0 t) (iblk1 V c 1 t) (t.val * 5000) ?_ ?_ p q hp
  · intro p' k hp'
    show V c main_v44 (((cfg1.win 0).blk t).view.emb (ix2 p' k)) = V c main_v44 (ix2 ⟨t.val * 5000 + p'.val, hp'⟩ k)
    refine congrArg _ (funext fun a => Fin.ext ?_)
    match a with
    | ⟨0, _⟩ => show win1_0.index t (0 : Fin 2) * 5000 + 1 * p'.val = t.val * 5000 + p'.val; omega
    | ⟨1, _⟩ => show win1_0.index t (1 : Fin 2) * 16 + 1 * k.val = k.val; omega
  · intro z
    show V c main_v45 (((cfg1.win 1).blk t).view.emb z) = V c main_v45 z
    refine congrArg _ (funext fun a => Fin.ext ?_)
    match a with
    | ⟨0, _⟩ => show win1_1.index t (0 : Fin 2) * 1 + 1 * (z 0).val = (z 0).val; omega
    | ⟨1, _⟩ => show win1_1.index t (1 : Fin 2) * 16 + 1 * (z 1).val = (z 1).val; omega

/-- An index of the array is in point t's block iff each coordinate is in the block's range on its axis. -/
theorem in_block (t : Fin cfg1.N) (i : S100000x16.Idx) :
    i ∈ ((cfg1.win 2).blk t).view.set ↔ ∀ a : Fin 2, win1_2.index t a * S5000x16.size a ≤ (i a).val
      ∧ (i a).val < win1_2.index t a * S5000x16.size a + S5000x16.size a := by
  show i ∈ ((View.whole main_v46).slice (win1_2.rect t)).set ↔ _
  rw [View.set_slice_whole, Rect.mem_set_unit]
  exact Iff.rfl

/-- Every index of the array is in the block of the point row / 5000. -/
theorem tiled (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, q0, q1⟩ := block_onto ⟨(i 0).val / 5000, by omega⟩
  have q0' : win1_2.index t (0 : Fin 2) = (i 0).val / 5000 := q0
  refine ⟨t, flush1_2 t, ?_⟩
  rw [in_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 16 ≤ (i 1).val ∧ (i 1).val < win1_2.index t (1 : Fin 2) * 16 + 16
    omega

/-- The array the region writes ends holding the clamped sum of the two arrays it reads. -/
theorem result (c : Dev nD) :
    (dat1 V c).arrAt 2 cfg1.N = biasRelu (V c main_v44) (V c main_v45) :=
  (dat1 V c).arrAt_eq_of_cover 2 (biasRelu (V c main_v44) (V c main_v45)) (fun t _ => written_back V c t) tiled

end Cert.Gcn.Region1

end
-- ==== Proof.Region2.lean ====
/-
  The third region as one function of its arrays: the array it writes ends holding the logarithm of the row softmax of
  (aggregated features · second weight matrix + bias row).

  The grid has twenty points. Point t reads rows 5000·t … 5000·t + 4999 of the aggregated features (16 columns), the
  whole 16 × 64 weight matrix and the one-row bias, and writes back the same rows of the result (64 columns). A row of
  the product, of the biased product, and of the logarithm of the row softmax depends on the same row of the features
  only, so what point t writes back is the whole-array function read through its block; the twenty blocks tile the
  100000 rows.
-/
import proofs.«157643_j29832842838041_2_alg».proof.Proof.Gen.KernelIdeal.Frame
import proofs.«157643_j29832842838041_2_alg».proof.Proof.Payloads

set_option maxRecDepth 16384

noncomputable section

namespace Cert.Gcn.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LibMatProd Cert.LibRowBias Cert.RowLogSoftmax

variable (V : (c : Dev nD) → (b : Ref sig .tc) → Buf (Elt Ideal) ((c : Thread nD τ).loc b))

theorem offs_zero : (![0, 0] : Fin 2 → Nat) = fun _ => 0 := funext fun a => by fin_cases a <;> rfl

/-- The printed index maps over the grid: the features' window and the result's window are at block row t, block
    column 0; the weights' and the bias row's windows stay at block (0, 0); there are twenty points. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 20 :=
  (by decide +kernel : ∀ t : Fin grid2.N, _)

/-- Every block row 0 … 19 is some point's. -/
theorem block_onto : ∀ q : Fin 20, ∃ t : Fin cfg2.N, win2_3.index t (0 : Fin 2) = q.val ∧ win2_3.index t (1 : Fin 2) = 0 :=
  (by decide +kernel : ∀ q : Fin 20, ∃ t : Fin grid2.N, win2_3.index t (0 : Fin 2) = q.val ∧ win2_3.index t (1 : Fin 2) = 0)

/-- What point t writes back is its block of the whole-array function of the three arrays as the region finds them. -/
theorem written_back (c : Dev nD) (t : Fin cfg2.N) :
    (dat2 V c).flushed 3 t
      = ((cfg2.win 3).blk t).view.read (Elt Ideal)
          (logSoftmax (addRow (matProd (V c main_v59) (V c main_arg4)) (V c main_v60))) := by
  show (cfg2.win 3).cut (grid2.coords t) ((dat2 V c).after 3 t) = _
  rw [after2_3]
  unfold out2_3
  rw [View.canon_unit_zero offs_zero]
  simp only [View.ld_unit_zero (S := S5000x16) offs_zero, View.ld_unit_zero (S := S16x64) offs_zero,
    View.ld_unit_zero (S := S1x64) offs_zero]
  rw [Cert.Gcn.pay2_eq]
  obtain ⟨e0, e1, e2, e3, e4, e5, e6, e7, e8⟩ := block_index t
  funext j
  show logSoftmax (addRow (matProd (iblk2 V c 0 t) (iblk2 V c 1 t)) (iblk2 V c 2 t)) j
    = logSoftmax (addRow (matProd (V c main_v59) (V c main_arg4)) (V c main_v60)) (((cfg2.win 3).blk t).view.emb j)
  have hrows : ∀ (p : Fin 5000) (k : Fin 16) (hp : t.val * 5000 + p.val < 100000),
      iblk2 V c 0 t (ix2 p k) = V c main_v59 (ix2 ⟨t.val * 5000 + p.val, hp⟩ k) := by
    intro p k hp
    show V c main_v59 (((cfg2.win 0).blk t).view.emb (ix2 p k)) = V c main_v59 (ix2 ⟨t.val * 5000 + p.val, hp⟩ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 16 + 1 * k.val = k.val; omega
  have hw : ∀ z, iblk2 V c 1 t z = V c main_arg4 z := by
    intro z
    show V c main_arg4 (((cfg2.win 1).blk t).view.emb z) = V c main_arg4 z
    refine congrArg _ (funext fun a => Fin.ext ?_)
    match a with
    | ⟨0, _⟩ => show win2_1.index t (0 : Fin 2) * 16 + 1 * (z 0).val = (z 0).val; omega
    | ⟨1, _⟩ => show win2_1.index t (1 : Fin 2) * 64 + 1 * (z 1).val = (z 1).val; omega
  have hb : ∀ z, iblk2 V c 2 t z = V c main_v60 z := by
    intro z
    show V c main_v60 (((cfg2.win 2).blk t).view.emb z) = V c main_v60 z
    refine congrArg _ (funext fun a => Fin.ext ?_)
    match a with
    | ⟨0, _⟩ => show win2_2.index t (0 : Fin 2) * 1 + 1 * (z 0).val = (z 0).val; omega
    | ⟨1, _⟩ => show win2_2.index t (1 : Fin 2) * 64 + 1 * (z 1).val = (z 1).val; omega
  refine logSoftmax_rows (addRow (matProd (V c main_v59) (V c main_arg4)) (V c main_v60))
    (addRow (matProd (iblk2 V c 0 t) (iblk2 V c 1 t)) (iblk2 V c 2 t)) (t.val * 5000) ?_ j _ ?_ ?_
  · intro p k hp
    refine addRow_rows (matProd (V c main_v59) (V c main_arg4)) (V c main_v60)
      (matProd (iblk2 V c 0 t) (iblk2 V c 1 t)) (iblk2 V c 2 t) (t.val * 5000) ?_ hb p k hp
    intro p' q' hp'
    exact matProd_rows (V c main_v59) (V c main_arg4) (iblk2 V c 0 t) (iblk2 V c 1 t) (t.val * 5000) hrows hw
      (ix2 p' q') (ix2 ⟨t.val * 5000 + p'.val, hp'⟩ q') rfl rfl
  · show win2_3.index t (0 : Fin 2) * 5000 + 1 * (j 0).val = t.val * 5000 + (j 0).val; omega
  · show win2_3.index t (1 : Fin 2) * 64 + 1 * (j 1).val = (j 1).val; omega

/-- An index of the array is in point t's block iff each coordinate is in the block's range on its axis. -/
theorem in_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v61).slice (win2_3.rect t)).set ↔ _
  rw [View.set_slice_whole, Rect.mem_set_unit]
  exact Iff.rfl

/-- Every index of the array is in the block of the point row / 5000. -/
theorem tiled (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, q0, q1⟩ := block_onto ⟨(i 0).val / 5000, by omega⟩
  have q0' : win2_3.index t (0 : Fin 2) = (i 0).val / 5000 := q0
  refine ⟨t, flush2_3 t, ?_⟩
  rw [in_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- The array the region writes ends holding the whole-array function of the three arrays it reads. -/
theorem result (c : Dev nD) :
    (dat2 V c).arrAt 3 cfg2.N = logSoftmax (addRow (matProd (V c main_v59) (V c main_arg4)) (V c main_v60)) :=
  (dat2 V c).arrAt_eq_of_cover 3 (logSoftmax (addRow (matProd (V c main_v59) (V c main_arg4)) (V c main_v60)))
    (fun t _ => written_back V c t) tiled

end Cert.Gcn.Region2

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.LibAggregate.lean ====
/-
  Sums over edges and sums over features exchange, for real entries.

  A graph layer adds, into node `n`, the rows `a e` of the edges `e` of a set `S` (those that point at `n`), each scaled
  by a weight `c e`. Multiplying the result by a matrix column `w` afterwards,

      ∑ k, (z + ∑ e ∈ S, a e k * c e) * w k,

  or multiplying every row by the column first and adding up the scaled products,

      z + ∑ e ∈ S, (∑ k, a e k * w k) * c e,

  is the same number when `z = 0` and every `a e k`, `c e`, `w k` is a real: then both are finite sums of reals, where
  multiplication distributes over addition and the order of summation is free. On the extended reals this needs the
  entries to be real — with an infinite weight the inner sums could be `+∞ + -∞` — which is why the statement carries
  the three hypotheses. Also here: a finite sum of reals is the real sum (`coe_sum`), so it is a real (`sum_real`);
  products and the larger of two reals are reals.
-/
import Idealize.ShloMosaic.PureOps.Ideal

noncomputable section

open scoped BigOperators

namespace Cert.LibAggregate

/-- The real sum, read as an extended real, is the sum of the terms read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih (fun i hi => h i (Finset.mem_insert_of_mem hi))
    obtain ⟨q, hq⟩ := h a (Finset.mem_insert_self a s)
    exact ⟨q + r, by rw [Finset.sum_insert ha, hr, hq, EReal.coe_add]⟩

/-- A product of reals is a real. -/
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of two reals is a real. -/
theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The larger of two reals is a real. -/
theorem max_real {x y : EReal} (hx : ∃ r : ℝ, x = r) (hy : ∃ r : ℝ, y = r) : ∃ r : ℝ, max x y = r := by
  rcases le_total x y with h | h
  · rw [max_eq_right h]; exact hy
  · rw [max_eq_left h]; exact hx

/-- Edges first, then the column — or the column first, then the edges: the same, for real entries. -/
theorem edges_then_column {E K : Type*} [Fintype K] (S : Finset E) (a : E → K → EReal) (c : E → EReal) (w : K → EReal)
    (ha : ∀ e k, ∃ r : ℝ, a e k = r) (hc : ∀ e, ∃ r : ℝ, c e = r) (hw : ∀ k, ∃ r : ℝ, w k = r) :
    ∑ k, (0 + ∑ e ∈ S, a e k * c e) * w k = 0 + ∑ e ∈ S, (∑ k, a e k * w k) * c e := by
  choose A hA using ha
  choose C hC using hc
  choose W hW using hw
  simp only [hA, hC, hW, zero_add, ← EReal.coe_mul, ← coe_sum]
  refine congrArg _ ?_
  simp only [Finset.sum_mul]
  rw [Finset.sum_comm]
  exact Finset.sum_congr rfl fun e _ => Finset.sum_congr rfl fun k _ => by ring

end Cert.LibAggregate

end
-- ==== Proof.LibGraphRound.lean ====
/-
  One round of message passing, read at an index, and its exchange with a matrix product.

  The edges of the graph are numbered by `Fin M`. Edge `e` has a source row, named by the integer `rowcol (e, 0)`
  taken signed and clamped into the array, a target row, named by the integer `colcol (e, 0)` taken signed (an edge
  whose target is outside the array contributes nowhere), and a weight `nrm e`. One round `agg H` gathers the source
  rows of the node features `H` (N × D), scales each by its edge's weight, and adds them into a zero array at the target
  rows. Entry (n, j) of the result is

      0 + ∑ over the edges e whose target is n of H (source e, j) · nrm e          (`agg_apply`).

  When the features, the weights of the edges and a matrix `W` (D × D') are real, aggregating and then multiplying by
  `W` is multiplying by `W` and then aggregating (`matProd_agg`): both are finite sums of products of reals, in which
  the product distributes and the two sums exchange.
-/
import proofs.«157643_j29832842838041_2_alg».proof.Proof.LibSegment
import proofs.«157643_j29832842838041_2_alg».proof.Proof.LibMatProd
import proofs.«157643_j29832842838041_2_alg».proof.Proof.LibAggregate
import Idealize.ShloMosaic.Lib.Pipeline.Value
import Idealize.ShloMosaic.Lib.ValueIdx
import Idealize.ShloMosaic.PureOps.Ideal.Laws

noncomputable section

open scoped BigOperators

namespace Cert.Graph

open Idealize.ShloMosaic Idealize.ShloMosaic.ValueIdx Cert.LibSegment Cert.LibMatProd Cert.LibAggregate

variable {α : Type}

/-- A vector `[a]` laid out as a column `[a, 1]` reads, at (p, u), the vector at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- A column `[a, 1]` repeated along the rows to `[a, b]` reads, at (p, c), the column at p. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- One round of message passing: gather the source rows, scale by the edge weights, add at the target rows. -/
def agg {N D M : ℕ} (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (H : FVec Ideal ⟨2, ![N, D]⟩ .f32) (rowcol colcol : IVec ⟨2, ![M, 1]⟩ 32) (nrm : FVec Ideal ⟨1, ![M]⟩ .f32) :
    FVec Ideal ⟨2, ![N, D]⟩ .f32 :=
  Host.scatterAdd (F := Ideal) (rowAddDims N D M wfs)
    (broadcastInDim ⟨2, ![N, D]⟩ ![] hz (constant (F := Ideal) ⟨0, ![]⟩ .f32 0x00000000#32)) colcol
    (mulf (Host.gather (rowDims N D M wfg) H rowcol)
      (broadcastInDim ⟨2, ![M, D]⟩ ![0, 1] hr (broadcastInDim ⟨2, ![M, 1]⟩ ![0] hc nrm)))

/-- Entry (n, j) after one round: the sum, over the edges whose target is n, of the source row's entry j times the
    edge's weight. -/
theorem agg_apply {N D M : ℕ} (hN : 0 < N) (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (H : FVec Ideal ⟨2, ![N, D]⟩ .f32) (rowcol colcol : IVec ⟨2, ![M, 1]⟩ 32) (nrm : FVec Ideal ⟨1, ![M]⟩ .f32)
    (n : Fin N) (j : Fin D) :
    agg wfg wfs hz hc hr H rowcol colcol nrm (ix2 n j)
      = 0 + ∑ e ∈ Finset.univ.filter (fun e : Fin M => (colcol (colIdx e)).toInt = (n.val : Int)),
          H (ix2 (clampRow N hN (rowcol (colIdx e))) j) * nrm (ix1 e) := by
  unfold agg
  rw [hostScatterAdd_rows_apply]
  refine congrArg₂ (· + ·) ?_ (Finset.sum_congr rfl fun e _ => ?_)
  · rw [broadcastInDim_apply _ hz _ (ix2 n j) ix0 (fun a => a.elim0)]
    exact Ideal.ofBits_zero_f32
  · rw [mulf_apply, gather_rows_apply hN, bcast_a1_ab_apply, bcast_a_a1_apply]

/-- Aggregating and then multiplying by a matrix is multiplying and then aggregating, for real entries. -/
theorem matProd_agg {N D D' M : ℕ} (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hr : (⟨2, ![M, 1]⟩ : Shape).BroadcastsInDim ⟨2, ![M, D]⟩ ![0, 1])
    (wfg' : GatherDims.WF ⟨2, ![N, D']⟩ ⟨2, ![M, 1]⟩ ⟨2, ![M, D']⟩ [1] [0] [] [0] [] 1 ![1, D'])
    (wfs' : ScatterDims.WF ⟨2, ![N, D']⟩ ⟨2, ![M, 1]⟩ ⟨2, ![M, D']⟩ [1] [0] [0] 1)
    (hz' : (⟨0, ![]⟩ : Shape).BroadcastsInDim ⟨2, ![N, D']⟩ ![])
    (hr' : (⟨2, ![M, 1]⟩ : Shape).BroadcastsInDim ⟨2, ![M, D']⟩ ![0, 1])
    (hc : (⟨1, ![M]⟩ : Shape).BroadcastsInDim ⟨2, ![M, 1]⟩ ![0])
    (X : FVec Ideal ⟨2, ![N, D]⟩ .f32) (W : FVec Ideal ⟨2, ![D, D']⟩ .f32)
    (rowcol colcol : IVec ⟨2, ![M, 1]⟩ 32) (nrm : FVec Ideal ⟨1, ![M]⟩ .f32)
    (hX : ∀ i, ∃ r : ℝ, X i = r) (hW : ∀ i, ∃ r : ℝ, W i = r) (hn : ∀ i, ∃ r : ℝ, nrm i = r) :
    matProd (agg wfg wfs hz hc hr X rowcol colcol nrm) W = agg wfg' wfs' hz' hc hr' (matProd X W) rowcol colcol nrm := by
  funext i
  obtain ⟨n, j, rfl⟩ : ∃ (n : Fin N) (j : Fin D'), i = ix2 n j := ⟨i 0, i 1, eq_ix2 i⟩
  rw [matProd_apply, agg_apply hN]
  simp only [agg_apply hN, matProd_apply]
  exact edges_then_column _ (fun e k => X (ix2 (clampRow N hN (rowcol (colIdx e))) k)) (fun e => nrm (ix1 e))
    (fun k => W (ix2 k j)) (fun e k => hX _) (fun e => hn _) (fun k => hW _)

end Cert.Graph

end
-- ==== Proof.Layers.lean ====
/-
  One round of neighbour aggregation of this network, at its sizes: 100000 nodes, 3300000 edges (the 3200000 given
  edges and one self loop per node), features of width 16 or 64.

  An edge's source is named by an integer that is first wrapped once (a negative integer has 100000 added, the way an
  array index counts from the end) and then, inside the gather, clamped into the array; its target by an integer used
  as it is (an edge whose target is outside the array adds nowhere); its weight is a float. One round gathers the
  source rows, scales each by its edge's weight, and adds them into a zero array at the target rows.

  Aggregating rows of width 16 and then multiplying by a 16 × 64 matrix is multiplying first and then aggregating rows
  of width 64, when the features, the weights of the edges and the matrix are real: both are finite sums of products of
  reals, where the product distributes over the sum and the two sums exchange. On the extended reals the hypothesis is
  needed (an infinite weight could make the inner sums +∞ + −∞).
-/
import proofs.«157643_j29832842838041_2_alg».proof.Proof.Gen.ReferenceIdeal
import proofs.«157643_j29832842838041_2_alg».proof.Proof.LibGraphRound

noncomputable section

namespace Cert.Gcn

open Idealize.ShloMosaic Idealize.ShloMosaic.TcCoe Idealize.ShloMosaic.ValueIdx
open Cert.ReferenceIdeal Cert.ReferenceIdeal.Gen
open Cert.LibMatProd Cert.LibSegment

/-- The column of source integers: each wrapped once (a negative one has 100000 added), laid out as [3300000, 1]. -/
def wrapCol (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The column of target integers, laid out as [3300000, 1]. -/
def col (d : IVec S3300000 32) : IVec S3300000x1 32 :=
  broadcastInDim S3300000x1 ![0] bcast_S3300000_S3300000x1_0 d

/-- One round on features of width 16. -/
def round16 (H : FVec Ideal S100000x16 .f32) (s d : IVec S3300000 32) (n : FVec Ideal S3300000 .f32) :
    FVec Ideal S100000x16 .f32 :=
  Cert.Graph.agg gather_S100000x16_S3300000x1_S3300000x16_1_0_n_n_0_1_116_wf
    scatter_S100000x16_S3300000x1_S3300000x16_1_0_0_1_wf bcast_S_S100000x16 bcast_S3300000_S3300000x1_0
    bcast_S3300000x1_S3300000x16_0_1 H (wrapCol s) (col d) n

/-- One round on features of width 64. -/
def round64 (H : FVec Ideal S100000x64 .f32) (s d : IVec S3300000 32) (n : FVec Ideal S3300000 .f32) :
    FVec Ideal S100000x64 .f32 :=
  Cert.Graph.agg gather_S100000x64_S3300000x1_S3300000x64_1_0_n_n_0_1_164_wf
    scatter_S100000x64_S3300000x1_S3300000x64_1_0_0_1_wf bcast_S_S100000x64 bcast_S3300000_S3300000x1_0
    bcast_S3300000x1_S3300000x64_0_1 H (wrapCol s) (col d) n

/-- Entry (i, j) after a round of width 16: the sum, over the edges whose target is i, of the source row's entry j
    times the edge's weight. -/
theorem round16_apply (H : FVec Ideal S100000x16 .f32) (s d : IVec S3300000 32) (n : FVec Ideal S3300000 .f32)
    (i : Fin 100000) (j : Fin 16) :
    round16 H s d n (ix2 i j)
      = 0 + ∑ e ∈ Finset.univ.filter (fun e : Fin 3300000 => (col d (colIdx e)).toInt = (i.val : Int)),
          H (ix2 (clampRow 100000 (by decide) (wrapCol s (colIdx e))) j) * n (ix1 e) :=
  Cert.Graph.agg_apply (by decide) _ _ _ _ _ H (wrapCol s) (col d) n i j

/-- Aggregate, then multiply by the weights = multiply by the weights, then aggregate, for real entries. -/
theorem round_exchange (H : FVec Ideal S100000x16 .f32) (W : FVec Ideal S16x64 .f32) (s d : IVec S3300000 32)
    (n : FVec Ideal S3300000 .f32) (hH : ∀ i, ∃ r : ℝ, H i = r) (hW : ∀ i, ∃ r : ℝ, W i = r)
    (hn : ∀ i, ∃ r : ℝ, n i = r) :
    matProd (round16 H s d n) W = round64 (matProd H W) s d n :=
  Cert.Graph.matProd_agg (by decide) _ _ _ _ _ _ _ _ _ H W (wrapCol s) (col d) n hH hW hn

end Cert.Gcn

end
-- ==== Proof.EdgeWeights.lean ====
/-
  The weights of the edges, and that they are real numbers.

  The degree of node i is the number of edges whose target is i: ones added into zeros at the target integers, so
  0 + a finite sum of ones, a real. The inverse root degree is degree ^ (−1/2) where the degree is positive and 0
  elsewhere; a real base to a real exponent is a real (the real power function, read as an extended real), and so is 0.
  The weight of an edge is the inverse root degree at its (wrapped, clamped) source times the one at its (wrapped,
  clamped) target: a product of two reals. No finiteness of the float inputs is used: these depend on the edge list
  only.
-/
import proofs.«157643_j29832842838041_2_alg».proof.Proof.Layers
import proofs.«157643_j29832842838041_2_alg».proof.Proof.LibRowLogSoftmax

noncomputable section

namespace Cert.Gcn

open Idealize.ShloMosaic Idealize.ShloMosaic.TcCoe Idealize.ShloMosaic.ValueIdx
open Cert.ReferenceIdeal Cert.ReferenceIdeal.Gen
open Cert.LibSegment Cert.LibAggregate

/-- A float word whose exponent field is not all ones denotes a real number. -/
theorem word_real (b : BitVec 32) (h : (b.extractLsb' 23 8).toNat ≠ 2 ^ 8 - 1) : ∃ q : ℝ, Ideal.ofBits .f32 b = q := by
  show ∃ q : ℝ, Ideal.ieee 8 23 b = q
  unfold Ideal.ieee
  simp only []
  rw [if_neg h]
  split <;> exact ⟨_, rfl⟩

/-- The edges' source integers: row 0 of the edge list, followed by one self loop per node (0, 1, …, 99999). -/
def sources (x1 : IVec S2x3200000 32) : IVec S3300000 32 :=
  concatenate S3300000 0
    [⟨S3200000, shapeCast S3200000 (extractStridedSlice S1x3200000 ![0, 0] x1 slices_S2x3200000_S1x3200000_0_0)
        shapeCasts_S1x3200000_S3200000⟩,
      ⟨S100000, iotaInDim S100000 32 0⟩] concatenates_S3200000_S100000_S3300000_d0

/-- The edges' target integers: row 1 of the edge list, followed by one self loop per node. -/
def targets (x1 : IVec S2x3200000 32) : IVec S3300000 32 :=
  concatenate S3300000 0
    [⟨S3200000, shapeCast S3200000 (extractStridedSlice S1x3200000 ![1, 0] x1 slices_S2x3200000_S1x3200000_1_0)
        shapeCasts_S1x3200000_S3200000⟩,
      ⟨S100000, iotaInDim S100000 32 0⟩] concatenates_S3200000_S100000_S3300000_d0

/-- The degrees: ones added into zeros at the target integers. -/
def degree (d : IVec S3300000 32) : FVec Ideal S100000 .f32 :=
  Host.scatterAdd scatter_S100000_S3300000x1_S3300000_n_0_0_1
    (broadcastInDim S100000 ![] bcast_S_S100000 (constant S_ .f32 0x00000000#32)) (col d)
    (broadcastInDim S3300000 ![] bcast_S_S3300000 (constant S_ .f32 0x3F800000#32))

theorem degree_real (d : IVec S3300000 32) (i : S100000.Idx) : ∃ r : ℝ, degree d i = r := by
  obtain ⟨n, rfl⟩ : ∃ n : Fin 100000, i = ix1 n := ⟨i 0, eq_ix1 i⟩
  have h := hostScatterAdd_entries_apply scatter_S100000_S3300000x1_S3300000_n_0_0_1_wf
    (broadcastInDim S100000 ![] bcast_S_S100000 (constant (F := Ideal) S_ .f32 0x00000000#32)) (col d)
    (broadcastInDim S3300000 ![] bcast_S_S3300000 (constant (F := Ideal) S_ .f32 0x3F800000#32)) n
  rw [show degree d (ix1 n) = _ from h]
  refine add_real ?_ (sum_real _ _ fun e _ => ?_)
  · rw [Cert.RowLogSoftmax.splat_apply, constant_apply, Ideal.ofBits_zero_f32]; exact ⟨0, rfl⟩
  · rw [Cert.RowLogSoftmax.splat_apply, constant_apply, Cert.LibPlainDot.one_f32]; exact ⟨1, rfl⟩

/-- The inverse root degrees: degree ^ (−1/2) where the degree is positive, 0 elsewhere. -/
def invRoot (deg : FVec Ideal S100000 .f32) : FVec Ideal S100000 .f32 :=
  select (cmpf .ogt deg (broadcastInDim S100000 ![] bcast_S_S100000 (constant S_ .f32 0x00000000#32)))
    (Host.powf deg (broadcastInDim S100000 ![] bcast_S_S100000 (constant S_ .f32 0xBF000000#32)))
    (broadcastInDim S100000 ![] bcast_S_S100000 (id (constant S_ .f32 0x00000000#32)))

theorem invRoot_real (deg : FVec Ideal S100000 .f32) (h : ∀ i, ∃ r : ℝ, deg i = r) (i : S100000.Idx) :
    ∃ r : ℝ, invRoot deg i = r := by
  show ∃ r : ℝ, Scalar.select
    (FloatOps.cmpf .ogt (deg i) (broadcastInDim S100000 ![] bcast_S_S100000 (constant (F := Ideal) S_ .f32 0x00000000#32) i))
    (FloatOps.hostPowf (deg i) (broadcastInDim S100000 ![] bcast_S_S100000 (constant (F := Ideal) S_ .f32 0xBF000000#32) i))
    (broadcastInDim S100000 ![] bcast_S_S100000 (id (constant (F := Ideal) S_ .f32 0x00000000#32)) i) = r
  unfold Scalar.select
  split
  · obtain ⟨a, ha⟩ := h i
    obtain ⟨q, hq⟩ := word_real 0xBF000000#32 (by decide)
    rw [Cert.RowLogSoftmax.splat_apply, constant_apply, ha, hq]
    exact ⟨Real.rpow a q, rfl⟩
  · rw [Cert.RowLogSoftmax.splat_apply]
    exact ⟨0, (constant_apply _ _).trans Ideal.ofBits_zero_f32⟩

/-- The weights of the edges: the inverse root degree at the source times the one at the target. -/
def edgeNorm (dinv : FVec Ideal S100000 .f32) (s d : IVec S3300000 32) : FVec Ideal S3300000 .f32 :=
  mulf (Host.gather gather_S100000_S3300000x1_S3300000_n_0_n_n_0_1_1 dinv (wrapCol s))
    (Host.gather gather_S100000_S3300000x1_S3300000_n_0_n_n_0_1_1 dinv (wrapCol d))

theorem edgeNorm_real (dinv : FVec Ideal S100000 .f32) (s d : IVec S3300000 32) (h : ∀ i, ∃ r : ℝ, dinv i = r)
    (i : S3300000.Idx) : ∃ r : ℝ, edgeNorm dinv s d i = r := by
  obtain ⟨e, rfl⟩ : ∃ e : Fin 3300000, i = ix1 e := ⟨i 0, eq_ix1 i⟩
  have g : ∀ idx : IVec S3300000x1 32,
      Host.gather gather_S100000_S3300000x1_S3300000_n_0_n_n_0_1_1 dinv idx (ix1 e)
        = dinv (ix1 (clampRow 100000 (by decide) (idx (colIdx e)))) :=
    fun idx => gather_entries_apply (by decide) gather_S100000_S3300000x1_S3300000_n_0_n_n_0_1_1_wf dinv idx e
  unfold edgeNorm
  rw [mulf_apply, g, g]
  exact mul_real (h _) (h _)

/-- The weights of the edges of a graph given by its source and target integers. -/
def weights (s d : IVec S3300000 32) : FVec Ideal S3300000 .f32 := edgeNorm (invRoot (degree d)) s d

theorem weights_real (s d : IVec S3300000 32) (i : S3300000.Idx) : ∃ r : ℝ, weights s d i = r :=
  edgeNorm_real _ s d (invRoot_real _ (degree_real d)) i

end Cert.Gcn

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.KernelSide.lean ====
/-
  The kernel program's result as a composition of named layers, over the extended reals.

  The buffers' contents at the eight boundaries of the program are a fold from the launch memory. Read at the buffers
  that matter:
  * at the first region's entry the edges' source integers s, target integers d and weights n are in place (they are
    computed by the first stretches from the edge list alone) and stay in place to the end: no later stretch and no
    region writes them;
  * the first region leaves x · W1; the stretch after it makes one round of width 16 of that and lays the first bias
    out as one row; the second region leaves h = relu( round16 (x · W1) + b1 );
  * the next stretch makes one round of width 16 of h and lays the second bias out as one row; the third region
    leaves log-softmax along the rows of ( round16 h · W2 + b2 ).
-/
import proofs.«157643_j29832842838041_2_alg».proof.Proof.Region0
import proofs.«157643_j29832842838041_2_alg».proof.Proof.Region1
import proofs.«157643_j29832842838041_2_alg».proof.Proof.Region2
import proofs.«157643_j29832842838041_2_alg».proof.Proof.EdgeWeights
import proofs.«157643_j29832842838041_2_alg».proof.Proof.LibTypedRef
import Idealize.ShloMosaic.Lib.StableHlo.Run

set_option maxRecDepth 16384

noncomputable section

namespace Cert.Gcn.Kernel

open Idealize.ShloMosaic Idealize.ShloMosaic.TcCoe Idealize.ShloMosaic.ValueIdx Idealize.ShloMosaic.StableHlo
open Idealize.SL Idealize.SL.Sem
open Cert.KernelIdeal Cert.KernelIdeal.Gen
open Cert.LibMatProd Cert.LibBiasRelu Cert.LibRowBias Cert.RowLogSoftmax

/-- A stretch of host operations leaves a buffer it does not write as it was: the fold at that buffer is the contents
    before the stretch (each operation's one written buffer is another one, decided on the buffers' numbers). -/
macro "stretch_keeps" : tactic => `(tactic| (
  refine StableHlo.after_of_forall_not_mem _ _ (List.forall_iff_forall_mem.mp ?_)
  simp only [hostOps0, hostOps0_1, hostOps0_2, hostOps1, hostOps2, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The edge data, in place from the first region's entry on -/

/-- The edges' source integers, target integers and weights, as the first region finds them. -/
abbrev srcAt : IVec S3300000 32 := W3 m ρ c (Proc.devRef .tc main_v3)
abbrev dstAt : IVec S3300000 32 := W3 m ρ c (Proc.devRef .tc main_v6)
abbrev normAt : FVec Ideal S3300000 .f32 := W3 m ρ c (Proc.devRef .tc main_v30)

theorem src_W4 : W4 m ρ c (Proc.devRef .tc main_v3) = srcAt m ρ c := W4_of_ne m ρ c main_v3 (by decide)
theorem dst_W4 : W4 m ρ c (Proc.devRef .tc main_v6) = dstAt m ρ c := W4_of_ne m ρ c main_v6 (by decide)
theorem norm_W4 : W4 m ρ c (Proc.devRef .tc main_v30) = normAt m ρ c := W4_of_ne m ρ c main_v30 (by decide)

theorem src_W6 : W6 m ρ c (Proc.devRef .tc main_v3) = srcAt m ρ c :=
  (W6_of_ne m ρ c main_v3 (by decide)).trans ((by stretch_keeps : W5 m ρ c (Proc.devRef .tc main_v3) = W4 m ρ c (Proc.devRef .tc main_v3)).trans (src_W4 m ρ c))
theorem dst_W6 : W6 m ρ c (Proc.devRef .tc main_v6) = dstAt m ρ c :=
  (W6_of_ne m ρ c main_v6 (by decide)).trans ((by stretch_keeps : W5 m ρ c (Proc.devRef .tc main_v6) = W4 m ρ c (Proc.devRef .tc main_v6)).trans (dst_W4 m ρ c))
theorem norm_W6 : W6 m ρ c (Proc.devRef .tc main_v30) = normAt m ρ c :=
  (W6_of_ne m ρ c main_v30 (by decide)).trans ((by stretch_keeps : W5 m ρ c (Proc.devRef .tc main_v30) = W4 m ρ c (Proc.devRef .tc main_v30)).trans (norm_W4 m ρ c))

/-! ## The edge data are the named functions of the edge list -/

/-- The first stretch leaves the source integers: row 0 of the edge list and the self loops. -/
theorem src_W2 : W2 m ρ c (Proc.devRef .tc main_v3) = sources (m ((c : Thread nD τ).loc main_arg1)) := by
  show StableHlo.after hostOps0_1 (StableHlo.after hostOps0 (W0 m ρ c)) (Proc.devRef .tc main_v3)
    = sources (W0 m ρ c (Proc.devRef .tc main_arg1))
  after_results_simp <;> rfl
/-- … and the target integers: row 1 of the edge list and the self loops. -/
theorem dst_W2 : W2 m ρ c (Proc.devRef .tc main_v6) = targets (m ((c : Thread nD τ).loc main_arg1)) := by
  show StableHlo.after hostOps0_1 (StableHlo.after hostOps0 (W0 m ρ c)) (Proc.devRef .tc main_v6)
    = targets (W0 m ρ c (Proc.devRef .tc main_arg1))
  after_results_simp <;> rfl
/-- The first two stretches leave the inverse root degrees: the first the degrees, their test against zero and their
    power −1/2, the second (three operations of an outlined selection) the choice between that power and zero. -/
theorem dinv_W2 : W2 m ρ c (Proc.devRef .tc main_v15) = invRoot (degree (targets (m ((c : Thread nD τ).loc main_arg1)))) := by
  have pick : ∀ U : Valuation τ sig (Elt Ideal), StableHlo.after hostOps0_1 U (Proc.devRef .tc main_v15)
      = select (U (Proc.devRef .tc main_v12)) (U (Proc.devRef .tc main_v14))
          (broadcastInDim S100000 ![] bcast_S_S100000 (id (U (Proc.devRef .tc main_cst_3)))) := by
    intro U
    after_results_simp <;> (try simp only [Cert.Lib.ofBuf_toBuf, Cert.Lib.toBuf_ofBuf]) <;> rfl
  have positive : ∀ U : Valuation τ sig (Elt Ideal), StableHlo.after hostOps0 U (Proc.devRef .tc main_v12)
      = cmpf .ogt (degree (targets (U (Proc.devRef .tc main_arg1))))
          (broadcastInDim S100000 ![] bcast_S_S100000 (constant (F := Ideal) S_ .f32 0x00000000#32)) := by
    intro U
    after_results_simp <;> rfl
  have power : ∀ U : Valuation τ sig (Elt Ideal), StableHlo.after hostOps0 U (Proc.devRef .tc main_v14)
      = Host.powf (degree (targets (U (Proc.devRef .tc main_arg1))))
          (broadcastInDim S100000 ![] bcast_S_S100000 (constant (F := Ideal) S_ .f32 0xBF000000#32)) := by
    intro U
    after_results_simp <;> rfl
  have zero : ∀ U : Valuation τ sig (Elt Ideal), StableHlo.after hostOps0 U (Proc.devRef .tc main_cst_3)
      = constant (F := Ideal) S_ .f32 0x00000000#32 := by
    intro U
    after_results_simp <;> rfl
  show StableHlo.after hostOps0_1 (StableHlo.after hostOps0 (W0 m ρ c)) (Proc.devRef .tc main_v15) = _
  rw [pick, positive, power, zero]
  rfl

theorem src_entry : srcAt m ρ c = sources (m ((c : Thread nD τ).loc main_arg1)) :=
  (by stretch_keeps : W3 m ρ c (Proc.devRef .tc main_v3) = W2 m ρ c (Proc.devRef .tc main_v3)).trans (src_W2 m ρ c)
theorem dst_entry : dstAt m ρ c = targets (m ((c : Thread nD τ).loc main_arg1)) :=
  (by stretch_keeps : W3 m ρ c (Proc.devRef .tc main_v6) = W2 m ρ c (Proc.devRef .tc main_v6)).trans (dst_W2 m ρ c)

/-- The third stretch leaves the edges' weights. -/
theorem norm_entry : normAt m ρ c = weights (sources (m ((c : Thread nD τ).loc main_arg1))) (targets (m ((c : Thread nD τ).loc main_arg1))) := by
  have e : ∀ U : Valuation τ sig (Elt Ideal), StableHlo.after hostOps0_2 U (Proc.devRef .tc main_v30)
      = edgeNorm (U (Proc.devRef .tc main_v15)) (U (Proc.devRef .tc main_v3)) (U (Proc.devRef .tc main_v6)) := by
    intro U
    after_results_simp <;> rfl
  show StableHlo.after hostOps0_2 (W2 m ρ c) (Proc.devRef .tc main_v30) = _
  rw [e, dinv_W2, src_W2, dst_W2]
  rfl

/-! ## The arguments, where a region or a stretch reads them -/

theorem arg0_W3 : W3 m ρ c (Proc.devRef .tc main_arg0) = m ((c : Thread nD τ).loc main_arg0) :=
  (by stretch_keeps : W3 m ρ c (Proc.devRef .tc main_arg0) = W2 m ρ c (Proc.devRef .tc main_arg0)).trans
    ((by stretch_keeps : W2 m ρ c (Proc.devRef .tc main_arg0) = W1 m ρ c (Proc.devRef .tc main_arg0)).trans
      (by stretch_keeps : W1 m ρ c (Proc.devRef .tc main_arg0) = W0 m ρ c (Proc.devRef .tc main_arg0)))
theorem arg2_W3 : W3 m ρ c (Proc.devRef .tc main_arg2) = m ((c : Thread nD τ).loc main_arg2) :=
  (by stretch_keeps : W3 m ρ c (Proc.devRef .tc main_arg2) = W2 m ρ c (Proc.devRef .tc main_arg2)).trans
    ((by stretch_keeps : W2 m ρ c (Proc.devRef .tc main_arg2) = W1 m ρ c (Proc.devRef .tc main_arg2)).trans
      (by stretch_keeps : W1 m ρ c (Proc.devRef .tc main_arg2) = W0 m ρ c (Proc.devRef .tc main_arg2)))
theorem arg3_W3 : W3 m ρ c (Proc.devRef .tc main_arg3) = m ((c : Thread nD τ).loc main_arg3) :=
  (by stretch_keeps : W3 m ρ c (Proc.devRef .tc main_arg3) = W2 m ρ c (Proc.devRef .tc main_arg3)).trans
    ((by stretch_keeps : W2 m ρ c (Proc.devRef .tc main_arg3) = W1 m ρ c (Proc.devRef .tc main_arg3)).trans
      (by stretch_keeps : W1 m ρ c (Proc.devRef .tc main_arg3) = W0 m ρ c (Proc.devRef .tc main_arg3)))
theorem arg4_W3 : W3 m ρ c (Proc.devRef .tc main_arg4) = m ((c : Thread nD τ).loc main_arg4) :=
  (by stretch_keeps : W3 m ρ c (Proc.devRef .tc main_arg4) = W2 m ρ c (Proc.devRef .tc main_arg4)).trans
    ((by stretch_keeps : W2 m ρ c (Proc.devRef .tc main_arg4) = W1 m ρ c (Proc.devRef .tc main_arg4)).trans
      (by stretch_keeps : W1 m ρ c (Proc.devRef .tc main_arg4) = W0 m ρ c (Proc.devRef .tc main_arg4)))
theorem arg5_W3 : W3 m ρ c (Proc.devRef .tc main_arg5) = m ((c : Thread nD τ).loc main_arg5) :=
  (by stretch_keeps : W3 m ρ c (Proc.devRef .tc main_arg5) = W2 m ρ c (Proc.devRef .tc main_arg5)).trans
    ((by stretch_keeps : W2 m ρ c (Proc.devRef .tc main_arg5) = W1 m ρ c (Proc.devRef .tc main_arg5)).trans
      (by stretch_keeps : W1 m ρ c (Proc.devRef .tc main_arg5) = W0 m ρ c (Proc.devRef .tc main_arg5)))

theorem arg3_W4 : W4 m ρ c (Proc.devRef .tc main_arg3) = m ((c : Thread nD τ).loc main_arg3) :=
  (W4_of_ne m ρ c main_arg3 (by decide)).trans (arg3_W3 m ρ c)
theorem arg4_W6 : W6 m ρ c (Proc.devRef .tc main_arg4) = m ((c : Thread nD τ).loc main_arg4) :=
  (W6_of_ne m ρ c main_arg4 (by decide)).trans ((by stretch_keeps : W5 m ρ c (Proc.devRef .tc main_arg4) = W4 m ρ c (Proc.devRef .tc main_arg4)).trans
    ((W4_of_ne m ρ c main_arg4 (by decide)).trans (arg4_W3 m ρ c)))
theorem arg5_W6 : W6 m ρ c (Proc.devRef .tc main_arg5) = m ((c : Thread nD τ).loc main_arg5) :=
  (W6_of_ne m ρ c main_arg5 (by decide)).trans ((by stretch_keeps : W5 m ρ c (Proc.devRef .tc main_arg5) = W4 m ρ c (Proc.devRef .tc main_arg5)).trans
    ((W4_of_ne m ρ c main_arg5 (by decide)).trans (arg5_W3 m ρ c)))
theorem arg4_W7 : W7 m ρ c (Proc.devRef .tc main_arg4) = m ((c : Thread nD τ).loc main_arg4) :=
  (by stretch_keeps : W7 m ρ c (Proc.devRef .tc main_arg4) = W6 m ρ c (Proc.devRef .tc main_arg4)).trans (arg4_W6 m ρ c)

/-! ## The first layer -/

/-- The first region leaves the product of the features with the first weight matrix. -/
theorem projected : W4 m ρ c (Proc.devRef .tc main_v31)
    = matProd (m ((c : Thread nD τ).loc main_arg0)) (m ((c : Thread nD τ).loc main_arg2)) := by
  have h := (W4_arr m ρ c 2).trans (Cert.Gcn.Region0.result (V3 m ρ) c)
  rw [show V3 m ρ c main_arg0 = m ((c : Thread nD τ).loc main_arg0) from arg0_W3 m ρ c,
    show V3 m ρ c main_arg2 = m ((c : Thread nD τ).loc main_arg2) from arg2_W3 m ρ c] at h
  exact h

/-- The stretch after it makes one round of width 16 of what the first region left. -/
theorem aggregated1 : W5 m ρ c (Proc.devRef .tc main_v44)
    = round16 (W4 m ρ c (Proc.devRef .tc main_v31)) (W4 m ρ c (Proc.devRef .tc main_v3))
        (W4 m ρ c (Proc.devRef .tc main_v6)) (W4 m ρ c (Proc.devRef .tc main_v30)) := by
  show StableHlo.after hostOps1 (W4 m ρ c) (Proc.devRef .tc main_v44) = _
  after_results_simp <;> rfl

/-- … and lays the first bias out as one row. -/
theorem biasRow1 : W5 m ρ c (Proc.devRef .tc main_v45) = rowOf (m ((c : Thread nD τ).loc main_arg3)) := by
  have e : W5 m ρ c (Proc.devRef .tc main_v45)
      = shapeCast S1x16 (W4 m ρ c (Proc.devRef .tc main_arg3)) shapeCasts_S16_S1x16 := by
    show StableHlo.after hostOps1 (W4 m ρ c) (Proc.devRef .tc main_v45) = _
    after_results_simp <;> rfl
  rw [e, arg3_W4]
  exact rowOf_cast _ _

/-- The second region leaves the hidden features: relu( round16 (x · W1) + b1 ). -/
theorem hidden : W6 m ρ c (Proc.devRef .tc main_v46)
    = biasRelu (round16 (matProd (m ((c : Thread nD τ).loc main_arg0)) (m ((c : Thread nD τ).loc main_arg2)))
        (srcAt m ρ c) (dstAt m ρ c) (normAt m ρ c)) (rowOf (m ((c : Thread nD τ).loc main_arg3))) := by
  have h := (W6_arr m ρ c 2).trans (Cert.Gcn.Region1.result (V5 m ρ) c)
  rw [show V5 m ρ c main_v44 = _ from aggregated1 m ρ c, show V5 m ρ c main_v45 = _ from biasRow1 m ρ c,
    projected, src_W4, dst_W4, norm_W4] at h
  exact h

/-! ## The second layer -/

/-- The next stretch makes one round of width 16 of the hidden features. -/
theorem aggregated2 : W7 m ρ c (Proc.devRef .tc main_v59)
    = round16 (W6 m ρ c (Proc.devRef .tc main_v46)) (W6 m ρ c (Proc.devRef .tc main_v3))
        (W6 m ρ c (Proc.devRef .tc main_v6)) (W6 m ρ c (Proc.devRef .tc main_v30)) := by
  show StableHlo.after hostOps2 (W6 m ρ c) (Proc.devRef .tc main_v59) = _
  after_results_simp <;> rfl

/-- … and lays the second bias out as one row. -/
theorem biasRow2 : W7 m ρ c (Proc.devRef .tc main_v60) = rowOf (m ((c : Thread nD τ).loc main_arg5)) := by
  have e : W7 m ρ c (Proc.devRef .tc main_v60)
      = shapeCast S1x64 (W6 m ρ c (Proc.devRef .tc main_arg5)) shapeCasts_S64_S1x64 := by
    show StableHlo.after hostOps2 (W6 m ρ c) (Proc.devRef .tc main_v60) = _
    after_results_simp <;> rfl
  rw [e, arg5_W6]
  exact rowOf_cast _ _

/-- The kernel program's result: log-softmax along the rows of ( round16 h · W2 + b2 ), h the hidden features. -/
theorem result : W8 m ρ c (Proc.devRef .tc main_v61)
    = logSoftmax (addRow
        (matProd (round16
          (biasRelu (round16 (matProd (m ((c : Thread nD τ).loc main_arg0)) (m ((c : Thread nD τ).loc main_arg2)))
            (srcAt m ρ c) (dstAt m ρ c) (normAt m ρ c)) (rowOf (m ((c : Thread nD τ).loc main_arg3))))
          (srcAt m ρ c) (dstAt m ρ c) (normAt m ρ c)) (m ((c : Thread nD τ).loc main_arg4)))
        (rowOf (m ((c : Thread nD τ).loc main_arg5)))) := by
  have h := (W8_arr m ρ c 3).trans (Cert.Gcn.Region2.result (V7 m ρ) c)
  rw [show V7 m ρ c main_v59 = _ from aggregated2 m ρ c, show V7 m ρ c main_v60 = _ from biasRow2 m ρ c,
    show V7 m ρ c main_arg4 = _ from arg4_W7 m ρ c, hidden, src_W6, dst_W6, norm_W6] at h
  exact h

/-- The same with the edge data named: s, d the edge list's sources and targets, n their weights. -/
theorem result_named : W8 m ρ c (Proc.devRef .tc main_v61)
    = logSoftmax (addRow
        (matProd (round16
          (biasRelu (round16 (matProd (m ((c : Thread nD τ).loc main_arg0)) (m ((c : Thread nD τ).loc main_arg2)))
            (sources (m ((c : Thread nD τ).loc main_arg1))) (targets (m ((c : Thread nD τ).loc main_arg1))) (weights (sources (m ((c : Thread nD τ).loc main_arg1))) (targets (m ((c : Thread nD τ).loc main_arg1)))))
            (rowOf (m ((c : Thread nD τ).loc main_arg3))))
          (sources (m ((c : Thread nD τ).loc main_arg1))) (targets (m ((c : Thread nD τ).loc main_arg1))) (weights (sources (m ((c : Thread nD τ).loc main_arg1))) (targets (m ((c : Thread nD τ).loc main_arg1)))))
          (m ((c : Thread nD τ).loc main_arg4)))
        (rowOf (m ((c : Thread nD τ).loc main_arg5)))) := by
  rw [result, src_entry, dst_entry, norm_entry]

end Cert.Gcn.Kernel

end
-- ==== Proof.RefChunks.lean ====
/-
  The reference program's 100 host operations as seven consecutive chunks: operations 1–20 (the edges' source and
  target integers, the degrees, their test against zero and their power −1/2), 21–23 (the inverse root degrees), 24–42
  (the edges' weights), 43–62 (layer 1 up to its bias), 63–65 (its clamp at zero), 66–85 (layer 2 up to its bias), 86–100
  (the logarithm of the row softmax). The program's list of operations is their concatenation.
-/
import proofs.«157643_j29832842838041_2_alg».proof.Proof.RefRunPatched

noncomputable section

namespace Cert.Gcn.Reference

open Idealize.ShloMosaic Idealize.ShloMosaic.TcCoe Idealize.SL.Sem Idealize.ShloMosaic.StableHlo
open Cert.ReferenceIdeal Cert.ReferenceIdeal.Gen Cert.ReferenceIdeal.ValueP

section Chunks
variable {F : FTy → Type} [FloatOps F]

/-- Operations 1–20: the source and target integers, the degrees, their test against zero and their power −1/2. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32) ]

/-- Operations 21–23, an outlined selection: the inverse root degrees. -/
abbrev opsW : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v14) (TRef.of (T := ⟨S100000, .f32⟩) main_call0_v1) (TRef.of (T := ⟨S100000, .f32⟩) main_v15) select ]

/-- Operations 24–42: the wrapped source and target columns, the edges' weights. -/
abbrev opsB : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Operations 43–62: layer 1 up to its bias. -/
abbrev opsC : List (HloOp τ sig (Elt F)) :=
  [ binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_7 (constantI S_ 32 0#32),
    unary main_c_7 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v31 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v39 (broadcastInDim S3300000x1 ![0] bcast_S3300000_S3300000x1_0 : (⟨S3300000, .f32⟩ : BufTy).Contents (Elt F) → (⟨S3300000x1, .f32⟩ : BufTy).Contents (Elt F)),
    unary main_v39 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v38 main_v40 main_v41 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v42 (broadcastInDim S100000x16 ![] bcast_S_S100000x16 : (⟨S_, .f32⟩ : BufTy).Contents (Elt F) → (⟨S100000x16, .f32⟩ : BufTy).Contents (Elt F)),
    unary main_v6 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)) ]

/-- Operations 63–65, an outlined clamp at zero. -/
abbrev opsR : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf ]

/-- Operations 66–85: layer 2 up to its bias. -/
abbrev opsD : List (HloOp τ sig (Elt F)) :=
  [ binary main_v48 main_arg4 main_v49 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    nullary main_c_10 (constantI S_ 32 0#32),
    unary main_c_10 main_v50 (broadcastInDim S3300000 ![] bcast_S_S3300000 : (⟨S_, .i32⟩ : BufTy).Contents (Elt F) → (⟨S3300000, .i32⟩ : BufTy).Contents (Elt F)),
    binary main_v3 main_v50 main_v51 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v52 (broadcastInDim S3300000 ![] bcast_S_S3300000 : (⟨S_, .i32⟩ : BufTy).Contents (Elt F) → (⟨S3300000, .i32⟩ : BufTy).Contents (Elt F)),
    binary main_v3 main_v52 main_v53 (addi : (⟨S3300000, .i32⟩ : BufTy).Contents (Elt F) → (⟨S3300000, .i32⟩ : BufTy).Contents (Elt F) → (⟨S3300000, .i32⟩ : BufTy).Contents (Elt F)),
    ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v54 main_v55 (broadcastInDim S3300000x1 ![0] bcast_S3300000_S3300000x1_0 : (⟨S3300000, .i32⟩ : BufTy).Contents (Elt F) → (⟨S3300000x1, .i32⟩ : BufTy).Contents (Elt F)),
    binary main_v49 main_v55 main_v56 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v30 main_v57 (broadcastInDim S3300000x1 ![0] bcast_S3300000_S3300000x1_0 : (⟨S3300000, .f32⟩ : BufTy).Contents (Elt F) → (⟨S3300000x1, .f32⟩ : BufTy).Contents (Elt F)),
    unary main_v57 main_v58 (broadcastInDim S3300000x64 ![0, 1] bcast_S3300000x1_S3300000x64_0_1 : (⟨S3300000x1, .f32⟩ : BufTy).Contents (Elt F) → (⟨S3300000x64, .f32⟩ : BufTy).Contents (Elt F)),
    binary main_v56 main_v58 main_v59 (mulf : (⟨S3300000x64, .f32⟩ : BufTy).Contents (Elt F) → (⟨S3300000x64, .f32⟩ : BufTy).Contents (Elt F) → (⟨S3300000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v6 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (addf : (⟨S100000x64, .f32⟩ : BufTy).Contents (Elt F) → (⟨S100000x64, .f32⟩ : BufTy).Contents (Elt F) → (⟨S100000x64, .f32⟩ : BufTy).Contents (Elt F)) ]

/-- Operations 86–100: the logarithm of the row softmax. -/
abbrev opsE : List (HloOp τ sig (Elt F)) :=
  [ TRef.nullary (TRef.of (T := ⟨S_, .f32⟩) main_call2_cst) (constant S_ .f32 0xFF800000#32),
    TRef.binary (TRef.of (T := ⟨S100000x64, .f32⟩) main_v65) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v65) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v66) subf ]

/-- The program's operations are the seven chunks in order. -/
theorem ops_chunks : (ops : List (HloOp τ sig (Elt F)))
    = opsA ++ (opsW ++ (opsB ++ (opsC ++ (opsR ++ (opsD ++ opsE))))) := rfl

end Chunks

end Cert.Gcn.Reference

end
-- ==== Proof.RefStagesEdge.lean ====
/-
  The first three chunks of the reference's host operations, read against any starting contents U:
  * operations 1–20 leave the edges' source and target integers (the two rows of the edge list U holds, each followed
    by one self loop per node), the test "degree > 0" and the power degree^(−1/2), and a zero;
  * operations 21–23, an outlined selection, leave the inverse root degrees: that power where the test holds, zero
    elsewhere (each value is carried to its buffer's type and back; those round trips cancel);
  * operations 24–42 leave the edges' weights, from the inverse root degrees and the source and target integers U holds.
-/
import proofs.«157643_j29832842838041_2_alg».proof.Proof.RefChunks
import proofs.«157643_j29832842838041_2_alg».proof.Proof.EdgeWeights
import proofs.«157643_j29832842838041_2_alg».proof.Proof.LibTypedRef

set_option maxRecDepth 16384

noncomputable section

namespace Cert.Gcn.Reference

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.ValueP

variable (U : Valuation τ sig (Elt Ideal))

theorem chunkA_src : after opsA U (Proc.devRef .tc main_v3) = sources (U (Proc.devRef .tc main_arg1)) := by
  after_results_simp <;> rfl
theorem chunkA_dst : after opsA U (Proc.devRef .tc main_v6) = targets (U (Proc.devRef .tc main_arg1)) := by
  after_results_simp <;> rfl
theorem chunkA_positive : after opsA U (Proc.devRef .tc main_v12)
    = cmpf .ogt (degree (targets (U (Proc.devRef .tc main_arg1))))
        (broadcastInDim S100000 ![] bcast_S_S100000 (constant (F := Ideal) S_ .f32 0x00000000#32)) := by
  after_results_simp <;> rfl
theorem chunkA_power : after opsA U (Proc.devRef .tc main_v14)
    = Host.powf (degree (targets (U (Proc.devRef .tc main_arg1))))
        (broadcastInDim S100000 ![] bcast_S_S100000 (constant (F := Ideal) S_ .f32 0xBF000000#32)) := by
  after_results_simp <;> rfl
theorem chunkA_zero : after opsA U (Proc.devRef .tc main_cst_3) = constant (F := Ideal) S_ .f32 0x00000000#32 := by
  after_results_simp <;> rfl
theorem chunkW : after opsW U (Proc.devRef .tc main_v15)
    = select (U (Proc.devRef .tc main_v12)) (U (Proc.devRef .tc main_v14))
        (broadcastInDim S100000 ![] bcast_S_S100000 (id (U (Proc.devRef .tc main_cst_3)))) := by
  after_results_simp <;> (try simp only [Cert.Lib.ofBuf_toBuf, Cert.Lib.toBuf_ofBuf]) <;> rfl
theorem chunkB : after opsB U (Proc.devRef .tc main_v30)
    = edgeNorm (U (Proc.devRef .tc main_v15)) (U (Proc.devRef .tc main_v3)) (U (Proc.devRef .tc main_v6)) := by
  after_results_simp <;> rfl

end Cert.Gcn.Reference

end
-- ==== Proof.HostForms.lean ====
/-
  The reference's spellings of the layers, each equal to the named layer.

  * Layer 1 on the host: a contraction of the features' second axis with the weights' first axis, one round of width 16,
    the bias broadcast in two steps ([16] → [1, 16] → [100000, 16]) and added, and the maximum against a broadcast zero:
    relu( round16 (x · W1) + b1 ).
  * Layer 2 on the host up to its bias: the contraction, one round of width 64, the bias broadcast in two steps and
    added: round64 (h · W2) + b2.
  * The logarithm of the row softmax on the host: the row maximum by a reduction from −∞ and one more maximum against
    −∞, the row sum by a reduction from zero, each broadcast back in two steps.
-/
import proofs.«157643_j29832842838041_2_alg».proof.Proof.Layers
import proofs.«157643_j29832842838041_2_alg».proof.Proof.LibBiasRelu
import proofs.«157643_j29832842838041_2_alg».proof.Proof.LibRowBias

noncomputable section

namespace Cert.Gcn

open Idealize.ShloMosaic Idealize.ShloMosaic.TcCoe Idealize.ShloMosaic.ValueIdx
open Cert.ReferenceIdeal Cert.ReferenceIdeal.Gen
open Cert.LibMatProd Cert.LibBiasRelu Cert.LibRowBias Cert.RowLogSoftmax

/-- Layer 1 as the host spells it. -/
def layer1Host (x0 : FVec Ideal S100000x512 .f32) (x2 : FVec Ideal S512x16 .f32) (x3 : FVec Ideal S16 .f32)
    (s d : IVec S3300000 32) (n : FVec Ideal S3300000 .f32) : FVec Ideal S100000x16 .f32 :=
  maximumf
    (addf (round16 (Host.dotGeneral dot_S100000x512_S512x16_S100000x16_1_0_0_1_n_n none x0 x2) s d n)
      (broadcastInDim S100000x16 ![0, 1] bcast_S1x16_S100000x16_0_1 (broadcastInDim S1x16 ![1] bcast_S16_S1x16_1 x3)))
    (broadcastInDim S100000x16 ![] bcast_S_S100000x16 (constant (F := Ideal) S_ .f32 0x00000000#32))

theorem layer1Host_eq (x0 : FVec Ideal S100000x512 .f32) (x2 : FVec Ideal S512x16 .f32) (x3 : FVec Ideal S16 .f32)
    (s d : IVec S3300000 32) (n : FVec Ideal S3300000 .f32) :
    layer1Host x0 x2 x3 s d n = biasRelu (round16 (matProd x0 x2) s d n) (rowOf x3) := by
  unfold layer1Host
  rw [host_dot_eq _ rfl rfl rfl rfl rfl rfl x0 x2, rowOf_bcast]
  exact Cert.LibBiasRelu.host_form _ _ _ _

/-- Layer 2, up to its bias, as the host spells it. -/
def layer2Host (h : FVec Ideal S100000x16 .f32) (x4 : FVec Ideal S16x64 .f32) (x5 : FVec Ideal S64 .f32)
    (s d : IVec S3300000 32) (n : FVec Ideal S3300000 .f32) : FVec Ideal S100000x64 .f32 :=
  addf (round64 (Host.dotGeneral dot_S100000x16_S16x64_S100000x64_1_0_0_1_n_n none h x4) s d n)
    (broadcastInDim S100000x64 ![0, 1] bcast_S1x64_S100000x64_0_1 (broadcastInDim S1x64 ![1] bcast_S64_S1x64_1 x5))

theorem layer2Host_eq (h : FVec Ideal S100000x16 .f32) (x4 : FVec Ideal S16x64 .f32) (x5 : FVec Ideal S64 .f32)
    (s d : IVec S3300000 32) (n : FVec Ideal S3300000 .f32) :
    layer2Host h x4 x5 s d n = addRow (round64 (matProd h x4) s d n) (rowOf x5) := by
  unfold layer2Host
  rw [host_dot_eq _ rfl rfl rfl rfl rfl rfl h x4, rowOf_bcast]
  exact addRow_host_form _ _ _

/-- The logarithm of the row softmax as the host spells it. -/
def logSoftmaxHost (v : FVec Ideal S100000x64 .f32) : FVec Ideal S100000x64 .f32 :=
  subf (subf v (broadcastInDim S100000x64 ![0, 1] bcast_S100000x1_S100000x64_0_1 (broadcastInDim S100000x1 ![0] bcast_S100000_S100000x1_0
        (maximumf (broadcastInDim S100000 ![] bcast_S_S100000 (constant (F := Ideal) S_ .f32 0xFF800000#32))
          (Host.reduce (FloatOps.maximumf (F := Ideal) (φ := .f32)) v (constant (F := Ideal) S_ .f32 0xFF800000#32) reducesTo_S100000x64_S100000_d1 h_S_)))))
    (broadcastInDim S100000x64 ![0, 1] bcast_S100000x1_S100000x64_0_1 (Host.log (F := Ideal) (broadcastInDim S100000x1 ![0] bcast_S100000_S100000x1_0
      (Host.reduceAdd (F := Ideal)
        (Host.exp (F := Ideal) (subf v (broadcastInDim S100000x64 ![0, 1] bcast_S100000x1_S100000x64_0_1 (broadcastInDim S100000x1 ![0] bcast_S100000_S100000x1_0
          (maximumf (broadcastInDim S100000 ![] bcast_S_S100000 (constant (F := Ideal) S_ .f32 0xFF800000#32))
            (Host.reduce (FloatOps.maximumf (F := Ideal) (φ := .f32)) v (constant (F := Ideal) S_ .f32 0xFF800000#32) reducesTo_S100000x64_S100000_d1 h_S_))))))
        (constant (F := Ideal) S_ .f32 0x00000000#32) reducesTo_S100000x64_S100000_d1 h_S_))))

theorem logSoftmaxHost_eq (v : FVec Ideal S100000x64 .f32) : logSoftmaxHost v = logSoftmax v :=
  Cert.RowLogSoftmax.host_form v reducesTo_S100000x64_S100000_d1 (by decide) h_S_ bcast_S_S100000
    bcast_S100000_S100000x1_0 bcast_S100000x1_S100000x64_0_1

end Cert.Gcn

end
-- ==== Proof.RefStagesLayer1.lean ====
/-
  The fourth and fifth chunks of the reference's host operations, read against any starting contents U:
  * operations 43–62 leave layer 1, up to its bias, of the features, weights and bias U holds;
  * operations 63–65, an outlined clamp, leave the maximum of what U holds against zero (each value is carried to its
    buffer's type and back; those round trips cancel).
-/
import proofs.«157643_j29832842838041_2_alg».proof.Proof.RefChunks
import proofs.«157643_j29832842838041_2_alg».proof.Proof.HostForms
import proofs.«157643_j29832842838041_2_alg».proof.Proof.LibTypedRef

set_option maxRecDepth 16384

noncomputable section

namespace Cert.Gcn.Reference

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.ValueP
open Cert.LibMatProd Cert.LibBiasRelu Cert.LibRowBias Cert.RowLogSoftmax

variable (U : Valuation τ sig (Elt Ideal))

theorem chunkC : after opsC U (Proc.devRef .tc main_v47)
    = addf (round16 (Host.dotGeneral (F := Ideal) (φ₁ := .f32) (φ₂ := .f32) dot_S100000x512_S512x16_S100000x16_1_0_0_1_n_n none (U (Proc.devRef .tc main_arg0)) (U (Proc.devRef .tc main_arg2)))
          (U (Proc.devRef .tc main_v3)) (U (Proc.devRef .tc main_v6)) (U (Proc.devRef .tc main_v30)))
        (broadcastInDim S100000x16 ![0, 1] bcast_S1x16_S100000x16_0_1
          (broadcastInDim S1x16 ![1] bcast_S16_S1x16_1 (U (Proc.devRef .tc main_arg3)))) := by
  after_results_simp <;> rfl
theorem chunkR : after opsR U (Proc.devRef .tc main_v48)
    = maximumf (U (Proc.devRef .tc main_v47))
        (broadcastInDim S100000x16 ![] bcast_S_S100000x16 (constant (F := Ideal) S_ .f32 0x00000000#32)) := by
  after_results_simp <;> (try simp only [Cert.Lib.ofBuf_toBuf, Cert.Lib.toBuf_ofBuf]) <;> rfl

end Cert.Gcn.Reference

end
-- ==== Proof.RefStagesLayer2.lean ====
/-
  The sixth chunk of the reference's host operations, read against any starting contents U: operations 66–85 leave
  layer 2, up to its bias, of the hidden features U holds.
-/
import proofs.«157643_j29832842838041_2_alg».proof.Proof.RefChunks
import proofs.«157643_j29832842838041_2_alg».proof.Proof.HostForms

set_option maxRecDepth 16384

noncomputable section

namespace Cert.Gcn.Reference

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.ValueP
open Cert.LibMatProd Cert.LibBiasRelu Cert.LibRowBias Cert.RowLogSoftmax

variable (U : Valuation τ sig (Elt Ideal))

theorem chunkD : after opsD U (Proc.devRef .tc main_v65)
    = layer2Host (U (Proc.devRef .tc main_v48)) (U (Proc.devRef .tc main_arg4)) (U (Proc.devRef .tc main_arg5))
        (U (Proc.devRef .tc main_v3)) (U (Proc.devRef .tc main_v6)) (U (Proc.devRef .tc main_v30)) := by
  after_results_simp <;> rfl

end Cert.Gcn.Reference

end
-- ==== Proof.RefStagesSoftmax.lean ====
/-
  The last chunk of the reference's host operations, read against any starting contents U: operations 86–100, an
  outlined function, leave the logarithm of the row softmax of what U holds (each value is carried to its buffer's
  type and back; those round trips cancel).
-/
import proofs.«157643_j29832842838041_2_alg».proof.Proof.RefChunks
import proofs.«157643_j29832842838041_2_alg».proof.Proof.HostForms
import proofs.«157643_j29832842838041_2_alg».proof.Proof.LibTypedRef

set_option maxRecDepth 16384

noncomputable section

namespace Cert.Gcn.Reference

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.ValueP
open Cert.LibMatProd Cert.LibBiasRelu Cert.LibRowBias Cert.RowLogSoftmax

variable (U : Valuation τ sig (Elt Ideal))

theorem chunkE : after opsE U (Proc.devRef .tc main_v66) = logSoftmaxHost (U (Proc.devRef .tc main_v65)) := by
  after_results_simp <;> (try simp only [Cert.Lib.ofBuf_toBuf, Cert.Lib.toBuf_ofBuf]) <;> rfl

end Cert.Gcn.Reference

end
-- ==== Proof.ReferenceRun.lean ====
/-
  The reference program's run.

  The fold of the 100 operations' results over the launch memory is the fold of the last chunk over the fold of the
  chunks before it. No chunk writes a buffer another chunk wrote, and none writes an argument, so what a later chunk
  reads is what the chunk that wrote it left; composing the seven reads gives the result buffer as

      log-softmax( round64 ( relu( round16 (x · W1) + b1 ) · W2 ) + b2 )

  of the arguments' launch contents. No term ever holds the whole composition.
-/
import proofs.«157643_j29832842838041_2_alg».proof.Proof.RefStagesEdge
import proofs.«157643_j29832842838041_2_alg».proof.Proof.RefStagesLayer1
import proofs.«157643_j29832842838041_2_alg».proof.Proof.RefStagesLayer2
import proofs.«157643_j29832842838041_2_alg».proof.Proof.RefStagesSoftmax

set_option maxRecDepth 16384

noncomputable section

namespace Cert.Gcn.Reference

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.ValueP
open Cert.LibMatProd Cert.LibBiasRelu Cert.LibRowBias Cert.RowLogSoftmax

/-- A chunk of host operations leaves a buffer it does not write as it was. -/
macro "chunk_keeps" : tactic => `(tactic| (
  refine StableHlo.after_of_forall_not_mem _ _ (List.forall_iff_forall_mem.mp ?_)
  simp only [opsA, opsW, opsB, opsC, opsR, opsD, opsE, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-! ## The whole fold at the result buffer -/

/-- The reference's result as a composition of named layers of the launch contents of its arguments. -/
theorem fold_result (V : Valuation τ sig (Elt Ideal)) :
    after ops V (Proc.devRef .tc main_v66)
      = logSoftmax (addRow (round64 (matProd
          (biasRelu (round16 (matProd (V (Proc.devRef .tc main_arg0)) (V (Proc.devRef .tc main_arg2)))
            (sources (V (Proc.devRef .tc main_arg1))) (targets (V (Proc.devRef .tc main_arg1)))
            (weights (sources (V (Proc.devRef .tc main_arg1))) (targets (V (Proc.devRef .tc main_arg1)))))
            (rowOf (V (Proc.devRef .tc main_arg3))))
          (V (Proc.devRef .tc main_arg4)))
          (sources (V (Proc.devRef .tc main_arg1))) (targets (V (Proc.devRef .tc main_arg1)))
            (weights (sources (V (Proc.devRef .tc main_arg1))) (targets (V (Proc.devRef .tc main_arg1)))))
          (rowOf (V (Proc.devRef .tc main_arg5)))) := by
  rw [ops_chunks, after_append, after_append, after_append, after_append, after_append, after_append]
  -- the contents after each chunk
  generalize hU1 : after opsA V = U1
  generalize hUw : after opsW U1 = Uw
  generalize hU2 : after opsB Uw = U2
  generalize hU3 : after opsC U2 = U3
  generalize hUr : after opsR U3 = Ur
  generalize hU4 : after opsD Ur = U4
  -- the first chunk: what it leaves, and keeps
  have s1 : U1 (Proc.devRef .tc main_v3) = sources (V (Proc.devRef .tc main_arg1)) := by rw [← hU1]; exact chunkA_src V
  have d1 : U1 (Proc.devRef .tc main_v6) = targets (V (Proc.devRef .tc main_arg1)) := by rw [← hU1]; exact chunkA_dst V
  have p1 := chunkA_positive V
  have w1 := chunkA_power V
  have z1 := chunkA_zero V
  rw [hU1] at p1 w1 z1
  have a0_1 : U1 (Proc.devRef .tc main_arg0) = (V (Proc.devRef .tc main_arg0)) := by rw [← hU1]; chunk_keeps
  have a2_1 : U1 (Proc.devRef .tc main_arg2) = (V (Proc.devRef .tc main_arg2)) := by rw [← hU1]; chunk_keeps
  have a3_1 : U1 (Proc.devRef .tc main_arg3) = (V (Proc.devRef .tc main_arg3)) := by rw [← hU1]; chunk_keeps
  have a4_1 : U1 (Proc.devRef .tc main_arg4) = (V (Proc.devRef .tc main_arg4)) := by rw [← hU1]; chunk_keeps
  have a5_1 : U1 (Proc.devRef .tc main_arg5) = (V (Proc.devRef .tc main_arg5)) := by rw [← hU1]; chunk_keeps
  -- the outlined selection: the inverse root degrees
  have qw : Uw (Proc.devRef .tc main_v15) = invRoot (degree (targets (V (Proc.devRef .tc main_arg1)))) := by
    rw [← hUw, chunkW U1, p1, w1, z1]; rfl
  have sw : Uw (Proc.devRef .tc main_v3) = sources (V (Proc.devRef .tc main_arg1)) := by rw [← hUw, ← s1]; chunk_keeps
  have dw : Uw (Proc.devRef .tc main_v6) = targets (V (Proc.devRef .tc main_arg1)) := by rw [← hUw, ← d1]; chunk_keeps
  have a0_w : Uw (Proc.devRef .tc main_arg0) = (V (Proc.devRef .tc main_arg0)) := by rw [← hUw, ← a0_1]; chunk_keeps
  have a2_w : Uw (Proc.devRef .tc main_arg2) = (V (Proc.devRef .tc main_arg2)) := by rw [← hUw, ← a2_1]; chunk_keeps
  have a3_w : Uw (Proc.devRef .tc main_arg3) = (V (Proc.devRef .tc main_arg3)) := by rw [← hUw, ← a3_1]; chunk_keeps
  have a4_w : Uw (Proc.devRef .tc main_arg4) = (V (Proc.devRef .tc main_arg4)) := by rw [← hUw, ← a4_1]; chunk_keeps
  have a5_w : Uw (Proc.devRef .tc main_arg5) = (V (Proc.devRef .tc main_arg5)) := by rw [← hUw, ← a5_1]; chunk_keeps
  -- the edges' weights
  have n2 : U2 (Proc.devRef .tc main_v30) = weights (sources (V (Proc.devRef .tc main_arg1))) (targets (V (Proc.devRef .tc main_arg1))) := by
    rw [← hU2, chunkB Uw, qw, sw, dw]; rfl
  have s2 : U2 (Proc.devRef .tc main_v3) = sources (V (Proc.devRef .tc main_arg1)) := by rw [← hU2, ← sw]; chunk_keeps
  have d2 : U2 (Proc.devRef .tc main_v6) = targets (V (Proc.devRef .tc main_arg1)) := by rw [← hU2, ← dw]; chunk_keeps
  have a0_2 : U2 (Proc.devRef .tc main_arg0) = (V (Proc.devRef .tc main_arg0)) := by rw [← hU2, ← a0_w]; chunk_keeps
  have a2_2 : U2 (Proc.devRef .tc main_arg2) = (V (Proc.devRef .tc main_arg2)) := by rw [← hU2, ← a2_w]; chunk_keeps
  have a3_2 : U2 (Proc.devRef .tc main_arg3) = (V (Proc.devRef .tc main_arg3)) := by rw [← hU2, ← a3_w]; chunk_keeps
  have a4_2 : U2 (Proc.devRef .tc main_arg4) = (V (Proc.devRef .tc main_arg4)) := by rw [← hU2, ← a4_w]; chunk_keeps
  have a5_2 : U2 (Proc.devRef .tc main_arg5) = (V (Proc.devRef .tc main_arg5)) := by rw [← hU2, ← a5_w]; chunk_keeps
  -- layer 1 up to its bias, then its clamp
  have c3 : U3 (Proc.devRef .tc main_v47)
      = addf (round16 (Host.dotGeneral (F := Ideal) (φ₁ := .f32) (φ₂ := .f32) dot_S100000x512_S512x16_S100000x16_1_0_0_1_n_n none (V (Proc.devRef .tc main_arg0)) (V (Proc.devRef .tc main_arg2)))
            (sources (V (Proc.devRef .tc main_arg1))) (targets (V (Proc.devRef .tc main_arg1)))
            (weights (sources (V (Proc.devRef .tc main_arg1))) (targets (V (Proc.devRef .tc main_arg1)))))
          (broadcastInDim S100000x16 ![0, 1] bcast_S1x16_S100000x16_0_1
            (broadcastInDim S1x16 ![1] bcast_S16_S1x16_1 (V (Proc.devRef .tc main_arg3)))) := by
    rw [← hU3, chunkC U2, a0_2, a2_2, a3_2, s2, d2, n2]
  have s3 : U3 (Proc.devRef .tc main_v3) = sources (V (Proc.devRef .tc main_arg1)) := by rw [← hU3, ← s2]; chunk_keeps
  have d3 : U3 (Proc.devRef .tc main_v6) = targets (V (Proc.devRef .tc main_arg1)) := by rw [← hU3, ← d2]; chunk_keeps
  have n3 : U3 (Proc.devRef .tc main_v30) = weights (sources (V (Proc.devRef .tc main_arg1))) (targets (V (Proc.devRef .tc main_arg1))) := by
    rw [← hU3, ← n2]; chunk_keeps
  have a4_3 : U3 (Proc.devRef .tc main_arg4) = (V (Proc.devRef .tc main_arg4)) := by rw [← hU3, ← a4_2]; chunk_keeps
  have a5_3 : U3 (Proc.devRef .tc main_arg5) = (V (Proc.devRef .tc main_arg5)) := by rw [← hU3, ← a5_2]; chunk_keeps
  have hr : Ur (Proc.devRef .tc main_v48) = biasRelu (round16 (matProd (V (Proc.devRef .tc main_arg0)) (V (Proc.devRef .tc main_arg2)))
      (sources (V (Proc.devRef .tc main_arg1))) (targets (V (Proc.devRef .tc main_arg1)))
      (weights (sources (V (Proc.devRef .tc main_arg1))) (targets (V (Proc.devRef .tc main_arg1))))) (rowOf (V (Proc.devRef .tc main_arg3))) := by
    rw [← hUr, chunkR U3, c3]; exact layer1Host_eq _ _ _ _ _ _
  have sr : Ur (Proc.devRef .tc main_v3) = sources (V (Proc.devRef .tc main_arg1)) := by rw [← hUr, ← s3]; chunk_keeps
  have dr' : Ur (Proc.devRef .tc main_v6) = targets (V (Proc.devRef .tc main_arg1)) := by rw [← hUr, ← d3]; chunk_keeps
  have nr : Ur (Proc.devRef .tc main_v30) = weights (sources (V (Proc.devRef .tc main_arg1))) (targets (V (Proc.devRef .tc main_arg1))) := by
    rw [← hUr, ← n3]; chunk_keeps
  have a4_r : Ur (Proc.devRef .tc main_arg4) = (V (Proc.devRef .tc main_arg4)) := by rw [← hUr, ← a4_3]; chunk_keeps
  have a5_r : Ur (Proc.devRef .tc main_arg5) = (V (Proc.devRef .tc main_arg5)) := by rw [← hUr, ← a5_3]; chunk_keeps
  -- layer 2 and the row softmax
  rw [chunkE U4, ← hU4, chunkD Ur, hr, a4_r, a5_r, sr, dr', nr, layer2Host_eq, logSoftmaxHost_eq]

/-! ## The run -/

set_option maxHeartbeats 4000000 in
/-- Every weakly fair execution of the reference terminates with its result buffer at the composition of named layers
    of the arguments' launch contents, the arguments unchanged: the library's run of a straight line of host
    operations, its fold read by `fold_result`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = logSoftmax (addRow (round64 (matProd
            (biasRelu (round16 (matProd (m ((c.tc : Thread nD τ).loc main_arg0)) (m ((c.tc : Thread nD τ).loc main_arg2)))
              (sources (m ((c.tc : Thread nD τ).loc main_arg1))) (targets (m ((c.tc : Thread nD τ).loc main_arg1))) (weights (sources (m ((c.tc : Thread nD τ).loc main_arg1))) (targets (m ((c.tc : Thread nD τ).loc main_arg1)))))
              (rowOf (m ((c.tc : Thread nD τ).loc main_arg3))))
            (m ((c.tc : Thread nD τ).loc main_arg4)))
            (sources (m ((c.tc : Thread nD τ).loc main_arg1))) (targets (m ((c.tc : Thread nD τ).loc main_arg1))) (weights (sources (m ((c.tc : Thread nD τ).loc main_arg1))) (targets (m ((c.tc : Thread nD τ).loc main_arg1)))))
            (rowOf (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (fold_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.Reference

end
-- ==== Proof.Bridge.lean ====
/-
  The two programs compute one function.

  With s, d the edges' sources and targets, n their weights (functions of the edge list alone), and
  h = relu( round16 (x · W1) + b1 ) the hidden features, the kernel program ends at

      log-softmax( round16 h · W2 + b2 )

  and the reference at

      log-softmax( round64 (h · W2) + b2 ).

  The weights n are real whatever the inputs. When the entries of x, W1, b1 are real, so are the entries of x · W1 (a
  finite sum of products of reals), of its round (a finite sum of products of reals), and of h (a sum of two reals,
  clamped against the real 0). With W2 real as well, aggregating h and then multiplying by W2 is multiplying and then
  aggregating, and the two results are the same function applied to the same array.
-/
import proofs.«157643_j29832842838041_2_alg».proof.Proof.EdgeWeights
import proofs.«157643_j29832842838041_2_alg».proof.Proof.LibBiasRelu
import proofs.«157643_j29832842838041_2_alg».proof.Proof.LibRowBias

noncomputable section

namespace Cert.Gcn

open Idealize.ShloMosaic Idealize.ShloMosaic.TcCoe Idealize.ShloMosaic.ValueIdx
open Cert.ReferenceIdeal Cert.ReferenceIdeal.Gen
open Cert.LibMatProd Cert.LibBiasRelu Cert.LibRowBias Cert.RowLogSoftmax Cert.LibAggregate Cert.LibSegment

variable (x : FVec Ideal S100000x512 .f32) (e : IVec S2x3200000 32) (w1 : FVec Ideal S512x16 .f32)
  (b1 : FVec Ideal S16 .f32) (w2 : FVec Ideal S16x64 .f32) (b2 : FVec Ideal S64 .f32)

/-- The hidden features: relu( round16 (x · W1) + b1 ). -/
def hiddenOf : FVec Ideal S100000x16 .f32 :=
  biasRelu (round16 (matProd x w1) (sources e) (targets e) (weights (sources e) (targets e))) (rowOf b1)

/-- What the kernel program computes: aggregate the hidden features, then project. -/
def aggregateThenProject : FVec Ideal S100000x64 .f32 :=
  logSoftmax (addRow (matProd (round16 (hiddenOf x e w1 b1) (sources e) (targets e) (weights (sources e) (targets e))) w2)
    (rowOf b2))

/-- What the reference computes: project the hidden features, then aggregate. -/
def projectThenAggregate : FVec Ideal S100000x64 .f32 :=
  logSoftmax (addRow (round64 (matProd (hiddenOf x e w1 b1) w2) (sources e) (targets e) (weights (sources e) (targets e)))
    (rowOf b2))

/-- A matrix product of real matrices has real entries. -/
theorem matProd_real {M K N : ℕ} (a : FVec Ideal ⟨2, ![M, K]⟩ .f32) (b : FVec Ideal ⟨2, ![K, N]⟩ .f32)
    (ha : ∀ i, ∃ r : ℝ, a i = r) (hb : ∀ i, ∃ r : ℝ, b i = r) (i : (⟨2, ![M, N]⟩ : Shape).Idx) :
    ∃ r : ℝ, matProd a b i = r := by
  obtain ⟨p, q, rfl⟩ : ∃ (p : Fin M) (q : Fin N), i = ix2 p q := ⟨i 0, i 1, eq_ix2 i⟩
  rw [matProd_apply]
  exact sum_real _ _ fun k _ => mul_real (ha _) (hb _)

/-- A round of real features along real weights has real entries. -/
theorem round16_real (H : FVec Ideal S100000x16 .f32) (s d : IVec S3300000 32) (n : FVec Ideal S3300000 .f32)
    (hH : ∀ i, ∃ r : ℝ, H i = r) (hn : ∀ i, ∃ r : ℝ, n i = r) (i : S100000x16.Idx) : ∃ r : ℝ, round16 H s d n i = r := by
  obtain ⟨p, q, rfl⟩ : ∃ (p : Fin 100000) (q : Fin 16), i = ix2 p q := ⟨i 0, i 1, eq_ix2 i⟩
  rw [round16_apply]
  exact add_real ⟨0, by simp⟩ (sum_real _ _ fun k _ => mul_real (hH _) (hn _))

/-- The hidden features are real when the features, the first weights and the first bias are. -/
theorem hiddenOf_real (hx : ∀ i, ∃ r : ℝ, x i = r) (hw : ∀ i, ∃ r : ℝ, w1 i = r) (hb : ∀ i, ∃ r : ℝ, b1 i = r)
    (i : S100000x16.Idx) : ∃ r : ℝ, hiddenOf x e w1 b1 i = r := by
  obtain ⟨p, q, rfl⟩ : ∃ (p : Fin 100000) (q : Fin 16), i = ix2 p q := ⟨i 0, i 1, eq_ix2 i⟩
  unfold hiddenOf
  rw [biasRelu_apply, Ideal.ofBits_zero_f32]
  refine max_real (add_real ?_ (hb _)) ⟨0, by simp⟩
  exact round16_real _ _ _ _ (matProd_real x w1 hx hw) (weights_real _ _) _

/-- The two programs' functions agree on real features, weights and first bias. -/
theorem aggregate_project_exchange (hx : ∀ i, ∃ r : ℝ, x i = r) (hw1 : ∀ i, ∃ r : ℝ, w1 i = r)
    (hb1 : ∀ i, ∃ r : ℝ, b1 i = r) (hw2 : ∀ i, ∃ r : ℝ, w2 i = r) :
    aggregateThenProject x e w1 b1 w2 b2 = projectThenAggregate x e w1 b1 w2 b2 := by
  unfold aggregateThenProject projectThenAggregate
  rw [round_exchange (hiddenOf x e w1 b1) w2 (sources e) (targets e) (weights (sources e) (targets e))
    (hiddenOf_real x e w1 b1 hx hw1 hb1) hw2 (weights_real _ _)]

end Cert.Gcn

end
-- ==== Proof.LibRealSoftmax.lean ====
/-
  Real numbers inside the extended reals, for softmax-like kernels.

  * Finite sums and maxima of real numbers, computed in the extended reals, are real numbers (the maximum over a
    nonempty range, folded from `-∞`).
  * An extended real whose absolute value `max a (-a)` is below `+∞` is a real number; so is one that passes the
    entrywise test `|a| < +∞` of a finiteness precondition.
  * A softmax does not change when one number is subtracted from every logit: `exp (a - t) = exp a * exp (-t)`, and the
    common factor cancels between an entry and the total. Multiplying by the reciprocal of the total is dividing by it.
  * The single-precision words of 1, -1, 2, 64, `+∞` and `-∞`, as extended reals.
-/
import Idealize.ShloMosaic.PureOps.Ideal
import Idealize.ShloMosaic.PureOps.Ideal.Laws

noncomputable section

namespace Cert.LibRealSoftmax

open Idealize.ShloMosaic

/-! ## The constants, as real numbers -/

/-- The word `0x3F800000` is 1. -/
theorem word_one : Ideal.ofBits .f32 0x3F800000#32 = ((1 : ℝ) : EReal) := by
  simp [Ideal.ofBits, Ideal.ieee]
  norm_cast
  norm_num
/-- The word `0xBF800000` is -1. -/
theorem word_negOne : Ideal.ofBits .f32 0xBF800000#32 = ((-1 : ℝ) : EReal) := by
  simp [Ideal.ofBits, Ideal.ieee]
  norm_cast
  norm_num
/-- The word `0x40000000` is 2. -/
theorem word_two : Ideal.ofBits .f32 0x40000000#32 = ((2 : ℝ) : EReal) := by
  simp [Ideal.ofBits, Ideal.ieee]
  norm_cast
  norm_num
/-- The word `0x42800000` is 64. -/
theorem word_sixtyFour : Ideal.ofBits .f32 0x42800000#32 = ((64 : ℝ) : EReal) := by
  simp [Ideal.ofBits, Ideal.ieee]
  norm_cast
  norm_num
/-- The word `0xFF800000` is `-∞`. -/
theorem word_negInf : Ideal.ofBits .f32 0xFF800000#32 = (⊥ : EReal) := by
  simp [Ideal.ofBits, Ideal.ieee]
/-- The word `0x7F800000` is `+∞`. -/
theorem word_posInf : Ideal.ofBits .f32 0x7F800000#32 = (⊤ : EReal) := by
  simp [Ideal.ofBits, Ideal.ieee]

/-! ## Finite sums and maxima of real numbers, inside the extended reals -/

/-- A finite sum of real numbers, computed in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, compared in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many real numbers over a nonempty range, folded from `-∞`, is a real number. -/
theorem fold_max_real {ι : Type} (s : Finset ι) (f : ι → ℝ) (hs : s.Nonempty) :
    ∃ μ : ℝ, s.fold max (⊥ : EReal) (fun i => ((f i : ℝ) : EReal)) = (μ : EReal) := by
  classical
  have key : ∀ s : Finset ι, (s.fold max (⊥ : EReal) (fun i => ((f i : ℝ) : EReal)) = ⊥ ∧ s = ∅)
      ∨ ∃ μ : ℝ, s.fold max (⊥ : EReal) (fun i => ((f i : ℝ) : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h]; exact max_eq_left bot_le⟩
      · exact ⟨max (f a) μ, by rw [h, max_coe]⟩
  rcases key s with ⟨-, h⟩ | h
  · exact absurd h hs.ne_empty
  · exact h

/-! ## A finite entry is a real number -/

/-- An extended real with absolute value below `+∞` is a real number. -/
theorem real_of_abs_lt_top (a : EReal) (h : max a (-a) < ⊤) : ∃ r : ℝ, a = (r : EReal) := by
  by_cases ht : a = ⊤
  · subst ht; simp at h
  by_cases hb : a = ⊥
  · subst hb; simp at h
  exact ⟨a.toReal, (EReal.coe_toReal ht hb).symm⟩

/-- The entrywise test `|a| < +∞` of a finiteness precondition, passed: the entry is a real number. -/
theorem real_of_test (a : EReal)
    (h : Ideal.cmp .olt (max a (-a)) (Ideal.ofBits .f32 0x7F800000#32) = 1#1) : ∃ r : ℝ, a = (r : EReal) := by
  rw [word_posInf] at h
  refine real_of_abs_lt_top a ?_
  by_contra hn
  simp [Ideal.cmp, hn] at h

/-! ## Shift invariance of the softmax, on the reals -/

/-- Subtracting `μ` from every logit, or `δ + ν` from every logit, gives the same softmax; and multiplying by the
    reciprocal of the total is dividing by it. -/
theorem softmax_shift_real {N : ℕ} (a : Fin N → ℝ) (δ μ ν : ℝ) (j : Fin N) :
    Real.exp (a j - μ) * (1 / ∑ l, Real.exp (a l - μ)) = Real.exp (a j - δ - ν) / ∑ l, Real.exp (a l - δ - ν) := by
  have hS : 0 < ∑ l, Real.exp (a l) := Finset.sum_pos (fun l _ => Real.exp_pos _) ⟨j, Finset.mem_univ _⟩
  have h1 : ∀ t : ℝ, ∑ l, Real.exp (a l - t) = (∑ l, Real.exp (a l)) * Real.exp (-t) := by
    intro t
    rw [Finset.sum_mul]
    refine Finset.sum_congr rfl fun l _ => ?_
    rw [← Real.exp_add, sub_eq_add_neg]
  have h2 : ∀ l, a l - δ - ν = a l - (δ + ν) := fun l => by ring
  simp only [h2, h1]
  rw [sub_eq_add_neg (a j) μ, sub_eq_add_neg (a j) (δ + ν), Real.exp_add, Real.exp_add]
  have e1 : Real.exp (-μ) ≠ 0 := (Real.exp_pos _).ne'
  have e2 : Real.exp (-(δ + ν)) ≠ 0 := (Real.exp_pos _).ne'
  have e3 : (∑ l, Real.exp (a l)) ≠ 0 := hS.ne'
  field_simp

end Cert.LibRealSoftmax

end
-- ==== Proof.Finite.lean ====
/-
  What the precondition gives: every entry of the features, of the two weight matrices and of the first bias is a real
  number.

  The precondition is the conjunction, over the five float arrays, of "every entry's magnitude is below +∞" (a reduction
  by ∧ from 1 of the entrywise comparison |a| < +∞). A conjunction that is 1 has every conjunct 1; a reduction by ∧
  that is 1 met only 1s; and an extended real whose magnitude is below +∞ is neither +∞ nor −∞, so it is a real.
-/
import proofs.«157643_j29832842838041_2_alg».proof.Defs
import proofs.«157643_j29832842838041_2_alg».proof.Proof.LibRealSoftmax
import proofs.«157643_j29832842838041_2_alg».proof.Proof.LibRowLogSoftmax
import Idealize.ShloMosaic.Lib.ReduceAll

noncomputable section

namespace Cert.Gcn

open Idealize.ShloMosaic Idealize.ShloMosaic.TcCoe Idealize.ShloMosaic.ValueIdx Idealize.SL.Sem

instance : Subsingleton (⟨0, ![]⟩ : Shape).Idx := ⟨fun a b => funext fun d => d.elim0⟩

/-- One array's test passed: every entry of the array is a real number. -/
theorem entries_real {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : ∃ r : ℝ, x i = r := by
  have e := Host.reduce_andi_all _ _ hr hu ix0 h i
  have hb' : broadcastInDim s ![] hb (constant (F := Ideal) ⟨0, ![]⟩ .f32 0x7F800000#32) i
      = Ideal.ofBits .f32 0x7F800000#32 := by
    rw [Cert.RowLogSoftmax.splat_apply, constant_apply]
  have e' : Ideal.cmp .olt (max (x i) (-(x i))) (Ideal.ofBits .f32 0x7F800000#32) = 1#1 := by
    rw [← hb']; exact e
  exact Cert.LibRealSoftmax.real_of_test _ e'

variable [Cert.Pre_finite_inputs.Facts]

open Cert.KernelIdeal in
/-- Under the precondition the features, both weight matrices and the first bias hold real numbers only. -/
theorem reals_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread nD τ).loc main_arg0) i = ((r : ℝ) : EReal))
    ∧ (∀ i, ∃ r : ℝ, m ((c.tc : Thread nD τ).loc main_arg2) i = ((r : ℝ) : EReal))
    ∧ (∀ i, ∃ r : ℝ, m ((c.tc : Thread nD τ).loc main_arg3) i = ((r : ℝ) : EReal))
    ∧ (∀ i, ∃ r : ℝ, m ((c.tc : Thread nD τ).loc main_arg4) i = ((r : ℝ) : EReal)) := by
  have h := congrFun (hpre c) ix0
  dsimp only [Cert.Pre_finite_inputs.fn, Cert.Pre_finite_inputs.fn_part1] at h
  obtain ⟨h18, -⟩ := IntOp.andi_eq_one.mp h
  obtain ⟨h13, h17⟩ := IntOp.andi_eq_one.mp h18
  obtain ⟨h8, h12⟩ := IntOp.andi_eq_one.mp h13
  obtain ⟨h3, h7⟩ := IntOp.andi_eq_one.mp h8
  exact ⟨entries_real _ _ _ _ h3, entries_real _ _ _ _ h7, entries_real _ _ _ _ h12, entries_real _ _ _ _ h17⟩

end Cert.Gcn

end
-- ==== Proof.lean ====
/-
  A two-layer graph convolution on 100000 nodes and 3300000 edges (the given 3200000 and one self loop per node):

      log-softmax along the rows of ( Â · relu( Â · (x · W1) + b1 ) · W2 + b2 ),

  where Â aggregates rows along the edges with the symmetric weights degree^(−1/2) at the source times degree^(−1/2) at
  the target. The kernel program computes the three dense pieces in three row-tiled regions (x · W1; bias and clamp;
  product with W2, bias and row log-softmax) and, in layer 2, aggregates the 16-wide hidden features BEFORE multiplying
  by W2; the reference multiplies first and aggregates 64-wide rows. Over the extended reals the two orders agree
  when the hidden features, W2 and the edge weights are real: both are finite sums of products of reals. The edge
  weights are real whatever the inputs (they depend on the edge list only); the hidden features and W2 are real under
  the precondition that every float input is finite. Everything else the two programs do is the same function
  spelt twice: a matrix unit's product into zeros against a host contraction, a row bias repeated by a vector broadcast
  against a two-step host broadcast, lane reductions against host reductions.

  The claims: the word-level kernel and its idealization run to the end with the arguments unchanged (the generated
  frames of the three-region program); the reference does (its run, read in five chunks of its host operations); the
  idealization rewrote nothing; and the idealized kernel and the idealized reference end with equal results.
-/
import proofs.«157643_j29832842838041_2_alg».proof.Defs
import proofs.«157643_j29832842838041_2_alg».proof.Proof.Gen.Kernel
import proofs.«157643_j29832842838041_2_alg».proof.Proof.Gen.Kernel.Frame
import proofs.«157643_j29832842838041_2_alg».proof.Proof.Gen.KernelIdeal
import proofs.«157643_j29832842838041_2_alg».proof.Proof.Gen.KernelIdeal.Frame
import proofs.«157643_j29832842838041_2_alg».proof.Proof.Gen.ReferenceIdeal
import proofs.«157643_j29832842838041_2_alg».proof.Proof.Gen.Pre_finite_inputs
import proofs.«157643_j29832842838041_2_alg».proof.Proof.KernelRun
import proofs.«157643_j29832842838041_2_alg».proof.Proof.KernelSide
import proofs.«157643_j29832842838041_2_alg».proof.Proof.ReferenceRun
import proofs.«157643_j29832842838041_2_alg».proof.Proof.Bridge
import proofs.«157643_j29832842838041_2_alg».proof.Proof.Finite

noncomputable section

namespace Cert.Proof

open Idealize.ShloMosaic Idealize.SL.Sem

/-- The word-level kernel runs to the end, nothing faulting, the arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.Gcn.Reference.run m ρ)

/-- The idealization rewrote no operation. -/
theorem preserves : Cert.preserves_Kernel_KernelIdeal := trivial

/-- From memories agreeing on the arguments, under the precondition, both idealized programs end at
    log-softmax( round16 h · W2 + b2 ): the kernel by its three regions, the reference at
    log-softmax( round64 (h · W2) + b2 ), which is the same array since h, W2 and the edge weights are real. -/
theorem algebraic : Cert.algebraic_KernelIdeal_ReferenceIdeal := by
  intro m ρ m' ρ' hpre hagree
  refine ⟨fun c => Cert.Gcn.aggregateThenProject (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.Kernel.result_named m ρ c), (h c).2⟩)
      (Cert.KernelIdeal.RunValue.run (F := Ideal) m ρ)
  · refine (θ_run Cert.ReferenceIdeal.defs _ _).mono (fun r h c => ⟨(h c).1.trans ?_, (h c).2⟩)
      (Cert.Gcn.Reference.run m' ρ')
    obtain ⟨a0, a1, a2, a3, a4, a5⟩ := hagree c
    obtain ⟨r0, r2, r3, r4⟩ := Cert.Gcn.reals_of_pre m hpre c
    rw [a0, a1, a2, a3, a4, a5]
    exact (Cert.Gcn.aggregate_project_exchange _ _ _ _ _ _ r0 r2 r3 r4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
